-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x256 : Shape := ⟨2, ![2000, 256]⟩
abbrev S2000x1 : Shape := ⟨2, ![2000, 1]⟩
abbrev S850000x256 : Shape := ⟨2, ![850000, 256]⟩
abbrev S1x256 : Shape := ⟨2, ![1, 256]⟩
abbrev S1x1 : Shape := ⟨2, ![1, 1]⟩
abbrev S800000x1 : Shape := ⟨2, ![800000, 1]⟩

abbrev nBuf : Space → Nat
  | .hbm => 79
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x256, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000x256, .f32⟩
  | .hbm, ⟨33, _⟩ => ⟨S_, .f32⟩
  | .hbm, ⟨34, _⟩ => ⟨S50000x256, .f32⟩
  | .hbm, ⟨35, _⟩ => ⟨S850000x1, .i32⟩
  | .hbm, ⟨36, _⟩ => ⟨S50000x256, .f32⟩
  | .hbm, ⟨37, _⟩ => ⟨S50000x256, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x256, .f32⟩
  | .hbm, ⟨47, _⟩ => ⟨S_, .f32⟩
  | .hbm, ⟨48, _⟩ => ⟨S50000x256, .f32⟩
  | .hbm, ⟨49, _⟩ => ⟨S850000x1, .i32⟩
  | .hbm, ⟨50, _⟩ => ⟨S50000x256, .f32⟩
  | .hbm, ⟨51, _⟩ => ⟨S50000x256, .f32⟩
  | .hbm, ⟨52, _⟩ => ⟨S50000x1, .f32⟩
  | .hbm, ⟨53, _⟩ => ⟨S1x800000, .i32⟩
  | .hbm, ⟨54, _⟩ => ⟨S800000, .i32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x1, .f32⟩
  | .hbm, ⟨64, _⟩ => ⟨S1x800000, .i32⟩
  | .hbm, ⟨65, _⟩ => ⟨S800000, .i32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x1, .f32⟩
  | .hbm, ⟨75, _⟩ => ⟨S800000x1, .f32⟩
  | .hbm, ⟨76, _⟩ => ⟨S_, .f32⟩
  | .hbm, ⟨77, _⟩ => ⟨S800000x1, .f32⟩
  | .hbm, ⟨78, _⟩ => ⟨S800000x1, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S256, .f32⟩
  | .local _ .vmem, ⟨20, _⟩ => ⟨S256x1, .f32⟩
  | .local _ .vmem, ⟨21, _⟩ => ⟨S1, .f32⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35_0 : Ref sig .tc := ⟨.hbm, 51, rfl⟩
abbrev main_v35_1 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  shapeCasts_S2000x256_S2000x256 : S2000x256.ShapeCasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  scatter_S50000_S850000x1_S850000_n_0_0_1_wf : ScatterDims.WF S50000 S850000x1 S850000 [] [0] [0] 1
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x1_S2000x1_1_0_0_1_n_n_wf : DotDims.WF S2000x256 S256x1 S2000x1 [1] [0] [0] [1] [] []
  gather_S50000x1_S800000x1_S800000x1_1_0_n_n_0_1_11_wf : GatherDims.WF S50000x1 S800000x1 S800000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .f32 = 32 ∨ (Rect.block (s := S50000x1) S2000x1.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v35_1) S2000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S800000x1 : Shape := ⟨2, ![800000, 1]⟩
abbrev S800000x256 : Shape := ⟨2, ![800000, 256]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x256, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x256, .f32⟩
  | .hbm, ⟨51, _⟩ => ⟨S850000x1, .f32⟩
  | .hbm, ⟨52, _⟩ => ⟨S850000x256, .f32⟩
  | .hbm, ⟨53, _⟩ => ⟨S850000x256, .f32⟩
  | .hbm, ⟨54, _⟩ => ⟨S_, .f32⟩
  | .hbm, ⟨55, _⟩ => ⟨S50000x256, .f32⟩
  | .hbm, ⟨56, _⟩ => ⟨S850000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x256, .f32⟩
  | .hbm, ⟨74, _⟩ => ⟨S850000x1, .f32⟩
  | .hbm, ⟨75, _⟩ => ⟨S850000x256, .f32⟩
  | .hbm, ⟨76, _⟩ => ⟨S850000x256, .f32⟩
  | .hbm, ⟨77, _⟩ => ⟨S_, .f32⟩
  | .hbm, ⟨78, _⟩ => ⟨S50000x256, .f32⟩
  | .hbm, ⟨79, _⟩ => ⟨S850000x1, .i32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x256, .f32⟩
  | .hbm, ⟨86, _⟩ => ⟨S50000x256, .f32⟩
  | .hbm, ⟨87, _⟩ => ⟨S1x800000, .i32⟩
  | .hbm, ⟨88, _⟩ => ⟨S800000, .i32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x256, .f32⟩
  | .hbm, ⟨98, _⟩ => ⟨S1x800000, .i32⟩
  | .hbm, ⟨99, _⟩ => ⟨S800000, .i32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x256, .f32⟩
  | .hbm, ⟨109, _⟩ => ⟨S800000x256, .f32⟩
  | .hbm, ⟨110, _⟩ => ⟨S_, .f32⟩
  | .hbm, ⟨111, _⟩ => ⟨S800000x256, .f32⟩
  | .hbm, ⟨112, _⟩ => ⟨S800000x256, .f32⟩
  | .hbm, ⟨113, _⟩ => ⟨S800000x1, .f32⟩
  | .hbm, ⟨114, _⟩ => ⟨S1x1, .f32⟩
  | .hbm, ⟨115, _⟩ => ⟨S800000x1, .f32⟩
  | .hbm, ⟨116, _⟩ => ⟨S800000x1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S800000x1_S800000x256_1_0_n_n_0_1_1256_wf : GatherDims.WF S50000x256 S800000x1 S800000x256 [1] [0] [] [0] [] 1 ![1, 256]
  dot_S800000x256_S256x1_S800000x1_1_0_0_1_n_n_wf : DotDims.WF S800000x256 S256x1 S800000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf

class Facts : Prop extends Facts₀ where

variable [Facts]
-- ==== Proof.KRun.lean ====
/-
  The idealized kernel program's run, with EVERY unscoped buffer named at the end.

  The program is three kernel regions among four stretches of host operations.  The buffer contents at each boundary
  are a fold from the launch memory (`Gen.W1` … `Gen.W7`): a host stretch applies its operations, a region replaces
  its arrays by what its write-backs leave.  Every weakly fair execution terminates without a fault, and at the end
  each unscoped buffer `b` of core `c` holds `Gen.W7 m ρ c b`.
-/
import proofs.«140676_j35845797053073_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and at the end every unscoped buffer of
    every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.RunValue

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.GraphData.lean ====
/-
  The graph the edge list describes, read off the host program's index arrays.

  The messages are the 800000 listed edges followed by one self loop per node, 850000 in all.  Message `e` reads the
  node row `g e` (its source word, wrapped when negative, read signed and clamped into the table) and is added into
  row `i` for every `e ∈ S i` (its destination word read signed, NOT clamped: a word outside the table drops the
  message).  `gd e` is the destination word read the way a gather reads it (wrapped and clamped).  `ea`, `eb` are the
  two endpoints of a scored edge, read the way a gather reads them.  `dinv i` is the inverse square root of the
  number of messages landing on node `i`.
-/
import proofs.«140676_j35845797053073_2_alg».proof.Proof.Gen.ReferenceIdeal.Read
import proofs.«140676_j35845797053073_2_alg».proof.Proof.LibAggRows

noncomputable section

namespace Cert.Graph

open Idealize.ShloMosaic Idealize.ShloMosaic.ValueIdx Cert.ReferenceIdeal Cert.ReferenceIdeal.Read Cert.LibAggRows

/-- The edge list: two rows of 800000 words. -/
abbrev Words : Type := (⟨S2x800000, .i32⟩ : BufTy).Contents (Elt Ideal)

/-- The column of source words as a gather reads it: wrapped when negative. -/
def srcIdx (x1 : Words) : IVec ⟨2, ![850000, 1]⟩ 32 := val_main_v17 (F := Ideal) x1
/-- The column of destination words as a scatter reads it: as they stand. -/
def dstIdx (x1 : Words) : IVec ⟨2, ![850000, 1]⟩ 32 := val_main_v9 (F := Ideal) x1
/-- The column of destination words as a gather reads it: wrapped when negative. -/
def dstIdxW (x1 : Words) : IVec ⟨2, ![850000, 1]⟩ 32 := val_main_v24 (F := Ideal) x1
/-- The listed edges' first endpoints as a gather reads them. -/
def endA (x1 : Words) : IVec ⟨2, ![800000, 1]⟩ 32 := val_main_v70 (F := Ideal) x1
/-- The listed edges' second endpoints as a gather reads them. -/
def endB (x1 : Words) : IVec ⟨2, ![800000, 1]⟩ 32 := val_main_v79 (F := Ideal) x1

theorem N_pos : 0 < 50000 := by decide

/-- The node row message `e` reads. -/
def g (x1 : Words) (e : Fin 850000) : Fin 50000 := srcRow 50000 N_pos (srcIdx x1) e
/-- The destination of message `e` read as a gather reads it. -/
def gd (x1 : Words) (e : Fin 850000) : Fin 50000 := srcRow 50000 N_pos (dstIdxW x1) e
/-- The messages landing on node `i`. -/
def S (x1 : Words) (i : Fin 50000) : Finset (Fin 850000) :=
  Finset.univ.filter (fun e => dstRow? 50000 (dstIdx x1) e = some i)
/-- The first endpoint of listed edge `e`. -/
def ea (x1 : Words) (e : Fin 800000) : Fin 50000 := srcRow 50000 N_pos (endA x1) e
/-- The second endpoint of listed edge `e`. -/
def eb (x1 : Words) (e : Fin 800000) : Fin 50000 := srcRow 50000 N_pos (endB x1) e
/-- The inverse square root of the number of messages landing on node `i`. -/
def dinv (x1 : Words) (i : Fin 50000) : EReal := val_main_v11 (F := Ideal) x1 (ix1 i)

end Cert.Graph

end
-- ==== Proof.LibVecScatter.lean ====
/-
  A VECTOR ACCUMULATED THROUGH AN INDEX COLUMN, AT AN ENTRY.

  The host's accumulating scatter of a vector of `E` updates into a vector of `N` entries, through a column of `E`
  integer words held as an `[E, 1]` array (what `zeros(N).at[idx].add(u)` lowers to, a segment sum of scalars): over the
  extended reals, entry `i` of the result is the operand's entry plus the sum of the updates `e` whose word, read as a
  signed integer and NOT clamped, is `i`; a word outside `[0, N)` drops its update. The landing entry is the one of the
  row scatter of a table with the same index column (`Cert.LibAggRows.dstRow?`), so a count of the rows landing on a
  row — the scatter of ones — and a sum of table rows landing there range over the same set of updates.
  Every statement is over the extents `N`, `E` and the word width `w` as variables.
-/
import Idealize.ShloMosaic.PureOps.Ideal
import Idealize.ShloMosaic.Lib.ValueIdx
import proofs.«140676_j35845797053073_2_alg».proof.Proof.LibAggRows

noncomputable section

open scoped BigOperators

namespace Cert.LibVecScatter

open Idealize.ShloMosaic Idealize.ShloMosaic.ValueIdx Cert.LibAggRows

/-- The vector scatter's dimension numbers for an operand `[N]`, scatter indices `[E, 1]` and updates `[E]`: no
    window axis, the operand's one axis inserted and named by the scatter index, the index vector along the scatter
    indices' axis 1. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the `e`-th scatter index, read signed. -/
theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window {N E : Nat} (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg]
  show (0 : Fin 1) ∉ Shape.kept ⟨1, ![N]⟩ [0]
  simp [Shape.kept]

/-- Two rank-1 indices with equal coordinates are equal. -/
theorem idx1_ext {n : Nat} (f g : (⟨1, ![n]⟩ : Shape).Idx) (h : f 0 = g 0) : f = g := by
  rw [eq_ix1 f, eq_ix1 g, h]

/-- THE LANDING ENTRY of update `e`: the entry `dstRow? N idx e`, when there is one. -/
theorem vecScatter_resultIdx? {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (dstRow? N idx e).map (fun r => ix1 r) := by
  have hs := vecScatter_start wf idx e
  have hw := vecScatter_window wf e
  unfold ScatterDims.resultIdx? dstRow?
  by_cases h : 0 ≤ (idx (ix2 e (0 : Fin 1))).toInt ∧ (idx (ix2 e (0 : Fin 1))).toInt < (N : Int)
  · have hall : ∀ a, 0 ≤ (vecScatterDims N E wf).start (ix1 e) idx a + (vecScatterDims N E wf).window (ix1 e) a ∧
        (vecScatterDims N E wf).start (ix1 e) idx a + (vecScatterDims N E wf).window (ix1 e) a
          < (⟨1, ![N]⟩ : Shape).size a := by
      intro a
      obtain rfl : a = 0 := Subsingleton.elim _ _
      rw [hs, hw]
      exact ⟨by simpa using h.1, by simpa using h.2⟩
    rw [dif_pos hall, dif_pos h, Option.map_some]
    refine congrArg some (idx1_ext _ _ (Fin.ext ?_))
    show ((vecScatterDims N E wf).start (ix1 e) idx 0 + (vecScatterDims N E wf).window (ix1 e) 0).toNat
      = (idx (ix2 e (0 : Fin 1))).toInt.toNat
    rw [hs, hw]; simp
  · rw [dif_neg h, dif_neg]
    · rfl
    · intro hall
      have h0 := hall 0
      rw [hs, hw] at h0
      exact h (by simpa using h0)

/-- An update `j` lands on entry `i` exactly when its scatter index is `i`. -/
theorem vecScatter_resultIdx?_eq_some {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : Fin N) :
    (vecScatterDims N E wf).resultIdx? j idx = some (ix1 i) ↔ dstRow? N idx (j 0) = some i := by
  obtain ⟨e, rfl⟩ : ∃ e, j = ix1 e := ⟨j 0, eq_ix1 j⟩
  show _ ↔ dstRow? N idx e = some i
  rw [vecScatter_resultIdx? wf idx e, Option.map_eq_some_iff]
  constructor
  · rintro ⟨r, hr, hri⟩
    have h0 : r = i := congrFun hri 0
    rw [hr, h0]
  · intro hr
    exact ⟨i, hr, rfl⟩

/-- THE VECTOR SCATTER-ADD READ AT `i`: the operand's entry plus the sum of the updates `e` whose scatter index (read
    signed, not clamped) is `i`. -/
theorem vecScatterAdd_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatterDims N E wf) x idx upd (ix1 i)
      = x (ix1 i) + ∑ e ∈ Finset.univ.filter (fun e : Fin E => dstRow? N idx e = some i), upd (ix1 e) := by
  show x (ix1 i) + ∑ j ∈ Finset.univ.filter (fun j => (vecScatterDims N E wf).resultIdx? j idx = some (ix1 i)), upd j = _
  congr 1
  refine Finset.sum_nbij' (fun j => j 0) (fun e => ix1 e) ?_ ?_ ?_ ?_ ?_
  · intro j hj
    rw [Finset.mem_filter] at hj
    exact Finset.mem_filter.mpr ⟨Finset.mem_univ _, (vecScatter_resultIdx?_eq_some wf idx j i).mp hj.2⟩
  · intro e he
    rw [Finset.mem_filter] at he
    exact Finset.mem_filter.mpr ⟨Finset.mem_univ _, (vecScatter_resultIdx?_eq_some wf idx (ix1 e) i).mpr he.2⟩
  · intro j _; exact (eq_ix1 j).symm
  · intro e _; rfl
  · intro j _; exact congrArg upd (eq_ix1 j)

end Cert.LibVecScatter

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.LibWords.lean ====
/-
  Small naturals as signed 32-bit words, and a conjunction of ones.

  A natural below 2³¹ written as a 32-bit word reads back, signed, as itself. So such a word is not negative, a
  wrap-around of negative indices leaves it alone, comparisons between two such words are the comparisons of the
  naturals, and clamping it into a range it already lies in does nothing. A left fold of one-bit words by `and` from 1
  over words that are all 1 is 1; so is a reduction by `and` from 1 of an array of ones.
-/
import Idealize.ShloMosaic.PureOps
import Idealize.ShloMosaic.Lib.ValueIdx
import Idealize.ShloMosaic.Lib.Affine
import Idealize.ShloMosaic.PureOps.Reduce

noncomputable section

namespace Cert.LibWords

open Idealize.ShloMosaic Idealize.ShloMosaic.ValueIdx

/-- A natural below 2³¹, as a 32-bit word, reads back signed as itself. -/
theorem toInt_ofNat_small (p : Nat) (hp : p < 2147483648) : (BitVec.ofNat 32 p).toInt = (p : Int) := by
  have hm : p % 2 ^ 32 = p := by omega
  rw [BitVec.toInt_eq_toNat_of_lt (by rw [BitVec.toNat_ofNat]; omega), BitVec.toNat_ofNat, hm]

/-- Read signed and made a natural again, it is the natural. -/
theorem toNat_toInt_ofNat_small (p : Nat) (hp : p < 2147483648) : (BitVec.ofNat 32 p).toInt.toNat = p := by
  rw [toInt_ofNat_small p hp, Int.toNat_natCast]

/-- It is not below zero … -/
theorem slt_zero_ofNat_small (p : Nat) (hp : p < 2147483648) : IntOp.cmpi .slt (BitVec.ofNat 32 p) 0#32 = 0#1 := by
  refine eq_zero_of_ne_one fun h => ?_
  have := IntOp.cmpi_slt.1 h
  rw [toInt_ofNat_small p hp] at this
  have h0 : (0#32 : BitVec 32).toInt = 0 := by decide
  omega

/-- … it is at least zero … -/
theorem sge_zero_ofNat_small (p : Nat) (hp : p < 2147483648) : IntOp.cmpi .sge (BitVec.ofNat 32 p) 0#32 = 1#1 := by
  refine IntOp.cmpi_sge.2 ?_
  rw [toInt_ofNat_small p hp]
  have h0 : (0#32 : BitVec 32).toInt = 0 := by decide
  omega

/-- … and two such words compare as the naturals do. -/
theorem sle_ofNat_small (p q : Nat) (hp : p < 2147483648) (hq : q < 2147483648) (hpq : p ≤ q) :
    IntOp.cmpi .sle (BitVec.ofNat 32 p) (BitVec.ofNat 32 q) = 1#1 := by
  refine IntOp.cmpi_sle.2 ?_
  rw [toInt_ofNat_small p hp, toInt_ofNat_small q hq]
  omega

/-- The wrap-around of a negative index (`if i < 0 then i + n else i`) leaves it alone. -/
theorem select_wrap_ofNat_small (p : Nat) (hp : p < 2147483648) (A : BitVec 32) :
    Scalar.select (IntOp.cmpi .slt (BitVec.ofNat 32 p) 0#32) A (BitVec.ofNat 32 p) = BitVec.ofNat 32 p := by
  rw [slt_zero_ofNat_small p hp, select_zero]

/-- Clamped into `[0, hi]` with `p ≤ hi`, it is `p`. -/
theorem clamp_ofNat_small (p hi : Nat) (hp : p < 2147483648) (hpi : p ≤ hi) :
    min (BitVec.ofNat 32 p).toInt.toNat hi = p := by
  rw [toNat_toInt_ofNat_small p hp]; omega

/-- A left fold by `and` from 1 over ones is 1. -/
theorem foldl_andi_ones {ι : Type} (g : ι → BitVec 1) :
    ∀ (l : List ι), (∀ i ∈ l, g i = 1#1) → l.foldl (fun r i => IntOp.andi r (g i)) 1#1 = 1#1
  | [], _ => rfl
  | a :: l, h => by
    rw [List.foldl_cons, h a (List.mem_cons_self ..)]
    exact foldl_andi_ones g l fun i hi => h i (List.mem_cons_of_mem _ hi)

/-- A reduction by `and` from the constant 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ fun i _ => hx i

end Cert.LibWords

end
-- ==== Proof.GraphFacts.lean ====
/-
  Two facts about the graph the edge list describes.

  (1) A message that lands on node i has, read the way a gather reads it, destination i: its destination word, read
  signed, lies in [0, 50000), so it is not negative, the wrap-around of negative words keeps it, and the clamp into the
  table does nothing.
  (2) The inverse square root of the number of messages landing on a node is a real number: the number is a natural
  number, and it is at least one because the node's self loop lands on it.
-/
import proofs.«140676_j35845797053073_2_alg».proof.Proof.GraphData
import proofs.«140676_j35845797053073_2_alg».proof.Proof.LibAggRows
import proofs.«140676_j35845797053073_2_alg».proof.Proof.LibVecScatter
import proofs.«140676_j35845797053073_2_alg».proof.Proof.LibRealSums
import proofs.«140676_j35845797053073_2_alg».proof.Proof.LibWords

noncomputable section

open scoped BigOperators

namespace Cert.Graph

open Idealize.ShloMosaic Idealize.ShloMosaic.ValueIdx Cert.ReferenceIdeal Cert.ReferenceIdeal.Read Cert.LibAggRows
  Cert.LibVecScatter Cert.LibRealSums Cert.LibWords

/-- The destination word of message e: entry e of the listed destination words followed by the node numbers. -/
def dstWord (x1 : Words) (e : Fin 850000) : BitVec 32 := val_main_v6 (F := Ideal) x1 (ix1 e)

/-- The destination column as a scatter reads it holds, in row e, the destination word of message e. -/
theorem dstIdx_apply (x1 : Words) (e : Fin 850000) : dstIdx x1 (ix2 e (0 : Fin 1)) = dstWord x1 e := by
  unfold dstIdx dstWord
  refine (val_main_v9_apply (F := Ideal) x1 (ix2 e (0 : Fin 1))).trans ?_
  refine congrArg (val_main_v6 (F := Ideal) x1) ?_
  funext d
  match d with
  | ⟨0, _⟩ => rfl

/-- The destination column as a gather reads it holds, in row e, the destination word of message e with the wrap-around
    of negative words applied. -/
theorem dstIdxW_apply (x1 : Words) (e : Fin 850000) :
    dstIdxW x1 (ix2 e (0 : Fin 1))
      = Scalar.select (IntOp.cmpi .slt (dstWord x1 e) 0#32) (IntOp.addi (dstWord x1 e) 50000#32) (dstWord x1 e) := by
  unfold dstIdxW dstWord
  refine (val_main_v24_apply (F := Ideal) x1 (ix2 e (0 : Fin 1))).trans ?_
  have hidx : idx_main_v24 (ix2 e (0 : Fin 1)) = ix1 e := by
    funext d
    match d with
    | ⟨0, _⟩ => rfl
  rw [hidx, val_main_v23_apply, val_main_v20_apply, val_main_v22_apply, val_main_v19_apply, val_main_c_2_apply,
    val_main_v21_apply, val_main_c_3_apply]

/-- A word that is not negative is kept by the wrap-around. -/
theorem wrap_of_nonneg (w A : BitVec 32) (h : 0 ≤ w.toInt) :
    Scalar.select (IntOp.cmpi .slt w 0#32) A w = w := by
  have h0 : (0#32 : BitVec 32).toInt = 0 := by decide
  have hc : IntOp.cmpi .slt w 0#32 = 0#1 := by
    refine eq_zero_of_ne_one fun hh => ?_
    have := IntOp.cmpi_slt.1 hh
    omega
  rw [hc, select_zero]

/-- A row lands on row i exactly when its word, read signed, is in the table's range and is i. -/
theorem dstRow?_eq_some_iff {E w : Nat} (N : Nat) (idx : IVec ⟨2, ![E, 1]⟩ w) (e : Fin E) (i : Fin N) :
    dstRow? N idx e = some i ↔
      0 ≤ (idx (ix2 e (0 : Fin 1))).toInt ∧ (idx (ix2 e (0 : Fin 1))).toInt < (N : Int)
        ∧ (idx (ix2 e (0 : Fin 1))).toInt.toNat = i.val := by
  unfold dstRow?
  constructor
  · intro h
    by_cases hc : 0 ≤ (idx (ix2 e (0 : Fin 1))).toInt ∧ (idx (ix2 e (0 : Fin 1))).toInt < (N : Int)
    · rw [dif_pos hc] at h
      exact ⟨hc.1, hc.2, congrArg Fin.val (Option.some.inj h)⟩
    · rw [dif_neg hc] at h
      exact absurd h (by simp)
  · rintro ⟨h0, h1, h2⟩
    rw [dif_pos ⟨h0, h1⟩]
    exact congrArg some (Fin.ext h2)

/-- Membership in the set of messages landing on node i, spelt on the destination word. -/
theorem mem_S_iff (x1 : Words) (i : Fin 50000) (e : Fin 850000) :
    e ∈ S x1 i ↔ 0 ≤ (dstWord x1 e).toInt ∧ (dstWord x1 e).toInt < 50000 ∧ (dstWord x1 e).toInt.toNat = i.val := by
  unfold S
  rw [Finset.mem_filter, dstRow?_eq_some_iff, dstIdx_apply]
  constructor
  · rintro ⟨_, h0, h1, h2⟩
    exact ⟨h0, by simpa using h1, h2⟩
  · rintro ⟨h0, h1, h2⟩
    exact ⟨Finset.mem_univ _, h0, by simpa using h1, h2⟩

/-- A message landing on node i has destination i as a gather reads it. -/
theorem gd_of_mem (x1 : Words) (i : Fin 50000) (e : Fin 850000) (he : e ∈ S x1 i) : gd x1 e = i := by
  obtain ⟨h0, h1, h2⟩ := (mem_S_iff x1 i e).1 he
  unfold gd srcRow
  refine Fin.ext ?_
  show min (dstIdxW x1 (ix2 e (0 : Fin 1))).toInt.toNat (50000 - 1) = i.val
  rw [dstIdxW_apply, wrap_of_nonneg _ _ h0]
  omega

/-- The self loop of node i: message 800000 + i. -/
def selfLoop (i : Fin 50000) : Fin 850000 := ⟨800000 + i.val, by omega⟩

/-- The destination word of the self loop of node i is the word of i. -/
theorem dstWord_selfLoop (x1 : Words) (i : Fin 50000) : dstWord x1 (selfLoop i) = BitVec.ofNat 32 i.val := by
  unfold dstWord val_main_v6
  refine (concatenate_pair_apply_right (t := S850000) (s₁ := S800000) (s₂ := S50000) 0 _ _ _ (ix1 (selfLoop i)) rfl rfl
    (ix1 i) ?_ ?_).trans ?_
  · intro b hb
    exact absurd (Subsingleton.elim _ _) hb
  · show i.val + 800000 = 800000 + i.val
    omega
  · exact val_main_v0_apply (F := Ideal) (ix1 i)

/-- The self loop of node i lands on node i. -/
theorem selfLoop_mem (x1 : Words) (i : Fin 50000) : selfLoop i ∈ S x1 i := by
  have hi : i.val < 50000 := i.isLt
  rw [mem_S_iff, dstWord_selfLoop, toInt_ofNat_small i.val (by omega)]
  refine ⟨by omega, by omega, ?_⟩
  simp

/-- The number of messages landing on node i, as the host computes it, is the real number that counts them. -/
theorem deg_eq (x1 : Words) (i : Fin 50000) :
    val_main_v10 (F := Ideal) x1 (ix1 i) = ((∑ _e ∈ S x1 i, (1 : ℝ) : ℝ) : EReal) := by
  unfold val_main_v10
  refine (vecScatterAdd_apply (N := 50000) (E := 850000) _ (val_main_v8 (F := Ideal)) (val_main_v9 (F := Ideal) x1)
    (val_main_v7 (F := Ideal)) i).trans ?_
  have h8 : val_main_v8 (F := Ideal) (ix1 i) = 0 :=
    (val_main_v8_apply (F := Ideal) (ix1 i)).trans ((val_main_cst_0_apply (F := Ideal) _).trans ofBits_zero)
  have h7 : ∀ e : Fin 850000, val_main_v7 (F := Ideal) (ix1 e) = ((1 : ℝ) : EReal) := fun e =>
    (val_main_v7_apply (F := Ideal) (ix1 e)).trans
      ((val_main_cst_apply (F := Ideal) _).trans (ofBits_one.trans EReal.coe_one.symm))
  rw [h8, zero_add, coe_sum]
  exact Finset.sum_congr rfl fun e _ => h7 e

/-- The inverse square root of the number of messages landing on a node is a real number. -/
theorem dinv_real (x1 : Words) (i : Fin 50000) : IsReal (dinv x1 i) := by
  have hpos : (1 : ℝ) ≤ ∑ _e ∈ S x1 i, (1 : ℝ) :=
    Finset.single_le_sum (f := fun _ => (1 : ℝ)) (fun _ _ => zero_le_one) (selfLoop_mem x1 i)
  have h : dinv x1 i = Ideal.rsqrt ((∑ _e ∈ S x1 i, (1 : ℝ) : ℝ) : EReal) :=
    (val_main_v11_apply (F := Ideal) x1 (ix1 i)).trans
      ((Ideal.hostUnary_rsqrt_def _).trans (congrArg Ideal.rsqrt (deg_eq x1 i)))
  rw [h, Ideal.rsqrt_coe, if_neg (by linarith), if_neg (by linarith)]
  exact isReal_coe _

end Cert.Graph

end
-- ==== Proof.GcnSpec.lean ====
/-
  A two-layer graph convolution with a symmetric degree normalisation, and an edge score on top of it, written
  twice over abstract finite index types: nodes `ν`, messages `μ` (the edges and the self loops), channels `κ`,
  scored edges `ε`.  A message `e` reads the row `g e` of a node table and is added into the row of every node
  `i` with `e ∈ S i`.

  The first spelling scales a dense layer's rows by `dinv` BEFORE the messages are gathered and once more AFTER they
  have been summed (`preK`, `actK`), and scores an edge from a per-node score (`scoreK`, `edgeK`).  The second
  scales every gathered message by `dinv (g e) * dinv (gd e)` (`actR`), and scores an edge from the mean of its two
  endpoint rows (`edgeR`).
-/
import Mathlib.Data.EReal.Basic
import Mathlib.Algebra.BigOperators.Group.Finset.Basic

noncomputable section

open scoped BigOperators

namespace Cert.Gcn

variable {ν μ κ ε : Type} [Fintype κ]

/-- A dense layer without bias: row `r` of `H` against column `q` of `W`. -/
def dense (H : ν → κ → EReal) (W : κ → κ → EReal) (r : ν) (q : κ) : EReal := ∑ k, H r k * W k q

/-- The sum, from zero, of the message rows `T e` landing on node `i`. -/
def aggr (S : ν → Finset μ) (T : μ → κ → EReal) (i : ν) (q : κ) : EReal := 0 + ∑ e ∈ S i, T e q

/-- A dense layer whose row `r` is scaled by `dinv r`. -/
def preK (dinv : ν → EReal) (H : ν → κ → EReal) (W : κ → κ → EReal) (r : ν) (q : κ) : EReal :=
  dense H W r q * dinv r

/-- Gather the rows of the pre-scaled table `R`, sum them per destination, scale row `i` by `dinv i`, add the bias
    and bound below by `z0`. -/
def actK (z0 : EReal) (S : ν → Finset μ) (g : μ → ν) (dinv : ν → EReal) (R : ν → κ → EReal) (b : κ → EReal)
    (i : ν) (q : κ) : EReal :=
  max (aggr S (fun e c => R (g e) c) i q * dinv i + b q) z0

/-- Gather the rows of `H W`, scale message `e` by `dinv (g e) * dinv (gd e)`, sum per destination, add the bias
    and bound below by `z0`. -/
def actR (z0 : EReal) (S : ν → Finset μ) (g gd : μ → ν) (dinv : ν → EReal) (H : ν → κ → EReal) (W : κ → κ → EReal)
    (b : κ → EReal) (i : ν) (q : κ) : EReal :=
  max (aggr S (fun e c => dense H W (g e) c * (dinv (g e) * dinv (gd e))) i q + b q) z0

/-- A node's score: its row against the weight column, plus the bias. -/
def scoreK (H : ν → κ → EReal) (We : κ → EReal) (be : EReal) (r : ν) : EReal := (∑ k, H r k * We k) + be

/-- An edge's score from its two endpoints' scores. -/
def edgeK (z : ν → EReal) (a b : ε → ν) (half : EReal) (e : ε) : EReal := (z (a e) + z (b e)) * half

/-- An edge's score from the mean of its two endpoint rows. -/
def edgeR (H : ν → κ → EReal) (a b : ε → ν) (half : EReal) (We : κ → EReal) (be : EReal) (e : ε) : EReal :=
  (∑ k, ((H (a e) k + H (b e) k) * half) * We k) + be

end Cert.Gcn

end
-- ==== Proof.GcnLaw.lean ====
/-
  The two spellings of the graph convolution (GcnSpec) agree on real entries.

  Scaling the rows of a table by `dinv` before the messages are gathered and the summed rows by `dinv` afterwards
  is scaling every message by the product of the two factors: `(∑ e, p e * u e) * v = ∑ e, p e * (u e * v)`, the
  distributive law, which on the extended reals needs every term to be a real number.  An edge's score from the two
  endpoint scores is its score from the endpoints' mean row, because the score is linear in the row and the two
  copies of the bias are halved.
-/
import proofs.«140676_j35845797053073_2_alg».proof.Proof.GcnSpec
import proofs.«140676_j35845797053073_2_alg».proof.Proof.LibRealSums

noncomputable section

open scoped BigOperators

namespace Cert.Gcn

open Cert.LibRealSums

variable {ν μ κ ε : Type} [Fintype κ]

/-- A sum of real products scaled by a real: the scale moves inside, onto the second factor. -/
theorem scale_sum {ι : Type} (s : Finset ι) (p u : ι → EReal) (v : EReal) (hp : ∀ e, IsReal (p e))
    (hu : ∀ e, IsReal (u e)) (hv : IsReal v) :
    (0 + ∑ e ∈ s, p e * u e) * v = 0 + ∑ e ∈ s, p e * (u e * v) := by
  choose p' hp' using hp
  choose u' hu' using hu
  obtain ⟨v', rfl⟩ := hv
  simp only [hp', hu', zero_add, ← EReal.coe_mul, ← coe_sum]
  rw [Finset.sum_mul]
  refine congrArg _ (Finset.sum_congr rfl fun e _ => ?_)
  ring

/-- A dense layer of real entries has real entries. -/
theorem dense_real (H : ν → κ → EReal) (W : κ → κ → EReal) (hH : ∀ r k, IsReal (H r k)) (hW : ∀ k c, IsReal (W k c))
    (r : ν) (q : κ) : IsReal (dense H W r q) :=
  isReal_sum _ _ fun k _ => isReal_mul (hH r k) (hW k q)

/-- The layer that scales before the gather and after the sum is the layer that scales each message by both
    factors, when the table, the weights and the factors are real and every message landing on `i` reads `i` as its
    destination. -/
theorem act_eq (z0 : EReal) (S : ν → Finset μ) (g gd : μ → ν) (dinv : ν → EReal) (H : ν → κ → EReal)
    (W : κ → κ → EReal) (b : κ → EReal) (hH : ∀ r k, IsReal (H r k)) (hW : ∀ k c, IsReal (W k c))
    (hd : ∀ r, IsReal (dinv r)) (hgd : ∀ i, ∀ e ∈ S i, gd e = i) (i : ν) (q : κ) :
    actK z0 S g dinv (preK dinv H W) b i q = actR z0 S g gd dinv H W b i q := by
  unfold actK actR aggr preK
  have h1 : (0 + ∑ e ∈ S i, dense H W (g e) q * dinv (g e)) * dinv i
      = 0 + ∑ e ∈ S i, dense H W (g e) q * (dinv (g e) * dinv i) :=
    scale_sum (S i) (fun e => dense H W (g e) q) (fun e => dinv (g e)) (dinv i)
      (fun e => dense_real H W hH hW (g e) q) (fun e => hd (g e)) (hd i)
  have h2 : ∑ e ∈ S i, dense H W (g e) q * (dinv (g e) * dinv (gd e))
      = ∑ e ∈ S i, dense H W (g e) q * (dinv (g e) * dinv i) :=
    Finset.sum_congr rfl fun e he => by rw [hgd i e he]
  rw [h1, h2]

/-- The layer has real entries when everything it is made of is real. -/
theorem actR_real (z0 : EReal) (S : ν → Finset μ) (g gd : μ → ν) (dinv : ν → EReal) (H : ν → κ → EReal)
    (W : κ → κ → EReal) (b : κ → EReal) (hz : IsReal z0) (hH : ∀ r k, IsReal (H r k)) (hW : ∀ k c, IsReal (W k c))
    (hd : ∀ r, IsReal (dinv r)) (hb : ∀ c, IsReal (b c)) (i : ν) (q : κ) :
    IsReal (actR z0 S g gd dinv H W b i q) := by
  unfold actR aggr
  exact isReal_max (isReal_add (isReal_add isReal_zero (isReal_sum _ _ fun e _ =>
    isReal_mul (dense_real H W hH hW (g e) q) (isReal_mul (hd (g e)) (hd (gd e))))) (hb q)) hz

/-- An edge's score from its endpoints' scores is its score from the mean of the endpoints' rows. -/
theorem edge_eq (H : ν → κ → EReal) (a b : ε → ν) (half : EReal) (We : κ → EReal) (be : EReal)
    (hH : ∀ r k, IsReal (H r k)) (hW : ∀ k, IsReal (We k)) (hbe : IsReal be)
    (hhalf : half = ((1 / 2 : ℝ) : EReal)) (e : ε) :
    edgeK (scoreK H We be) a b half e = edgeR H a b half We be e := by
  unfold edgeK scoreK edgeR
  choose H' hH' using hH
  choose W' hW' using hW
  obtain ⟨be', rfl⟩ := hbe
  subst hhalf
  simp only [hH', hW', ← EReal.coe_mul, ← EReal.coe_add, ← coe_sum]
  refine congrArg _ ?_
  have : ∑ k, (H' (a e) k + H' (b e) k) * (1 / 2) * W' k
      = (∑ k, H' (a e) k * W' k + ∑ k, H' (b e) k * W' k) * (1 / 2) := by
    rw [← Finset.sum_add_distrib, Finset.sum_mul]
    exact Finset.sum_congr rfl fun k _ => by ring
  rw [this]
  ring

/-- The f32 word of one half denotes the real one half. -/
theorem ofBits_half : Idealize.ShloMosaic.Ideal.ofBits .f32 0x3F000000#32 = ((1 / 2 : ℝ) : EReal) := by
  simp [Idealize.ShloMosaic.Ideal.ofBits, Idealize.ShloMosaic.Ideal.ieee, -EReal.coe_mul]; norm_num

end Cert.Gcn

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.PreReal.lean ====
/-
  The precondition read back: every float argument's every entry is a real number.

  The printed precondition is a conjunction, by `and` of one-bit words, of seven tests `all(|x| < +inf)`, one per float
  argument (the integer edge list is not constrained). The conjunction being 1 makes each test 1; a test that is 1 met
  only 1s; and `|x| < +inf` at an extended real says the entry is neither infinity: it is a real number.
-/
import proofs.«140676_j35845797053073_2_alg».proof.Defs
import proofs.«140676_j35845797053073_2_alg».proof.Proof.Gen.Pre_finite_inputs
import proofs.«140676_j35845797053073_2_alg».proof.Proof.LibPreDecode
import proofs.«140676_j35845797053073_2_alg».proof.Proof.LibRealSums
import Idealize.ShloMosaic.Lib.ReduceAll
import Idealize.ShloMosaic.Lib.ValueIdx

noncomputable section

namespace Cert.PreReal

open Idealize.ShloMosaic Idealize.ShloMosaic.ValueIdx Idealize.SL.Sem
open Cert.Pre_finite_inputs

/-- The rank-0 shape has one index. -/
instance subsingleton_scalar_idx : Subsingleton S_.Idx := ⟨fun a b => funext fun d => d.elim0⟩

/-- The precondition being 1 says every entry of every float argument is a real number. -/
theorem args_real [hP : Cert.Pre_finite_inputs.Facts]
    (a0 : FVec Ideal S50000x256 .f32) (a1 : IVec S2x800000 32) (a2 : FVec Ideal S256x256 .f32)
    (a3 : FVec Ideal S256 .f32) (a4 : FVec Ideal S256x256 .f32) (a5 : FVec Ideal S256 .f32)
    (a6 : FVec Ideal S256x1 .f32) (a7 : FVec Ideal S1 .f32)
    (h : Cert.Pre_finite_inputs.fn (F := Ideal) a0 a1 a2 a3 a4 a5 a6 a7 = fun _ => 1#1) :
    (∀ i, Cert.LibRealSums.IsReal (a0 i)) ∧ (∀ i, Cert.LibRealSums.IsReal (a2 i)) ∧
    (∀ i, Cert.LibRealSums.IsReal (a3 i)) ∧ (∀ i, Cert.LibRealSums.IsReal (a4 i)) ∧
    (∀ i, Cert.LibRealSums.IsReal (a5 i)) ∧ (∀ i, Cert.LibRealSums.IsReal (a6 i)) ∧
    (∀ i, Cert.LibRealSums.IsReal (a7 i)) := by
  have e := congrFun h ix0
  dsimp only [fn, fn_part1] at e
  simp only [andi, IntOp.andi_eq_one] at e
  obtain ⟨⟨⟨⟨⟨⟨h0, h2⟩, h3⟩, h4⟩, h5⟩, h6⟩, h7⟩ := e
  exact ⟨fun i => Cert.LibPreDecode.all_real a0 _ (fun _ => rfl) _ _ _ ix0 h0 i,
    fun i => Cert.LibPreDecode.all_real a2 _ (fun _ => rfl) _ _ _ ix0 h2 i,
    fun i => Cert.LibPreDecode.all_real a3 _ (fun _ => rfl) _ _ _ ix0 h3 i,
    fun i => Cert.LibPreDecode.all_real a4 _ (fun _ => rfl) _ _ _ ix0 h4 i,
    fun i => Cert.LibPreDecode.all_real a5 _ (fun _ => rfl) _ _ _ ix0 h5 i,
    fun i => Cert.LibPreDecode.all_real a6 _ (fun _ => rfl) _ _ _ ix0 h6 i,
    fun i => Cert.LibPreDecode.all_real a7 _ (fun _ => rfl) _ _ _ ix0 h7 i⟩

/-- The same, for the idealized kernel program's argument arrays on every device, from its precondition. -/
theorem kernel_args_real
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, Cert.LibRealSums.IsReal (m ((c.tc : Thread Cert.KernelIdeal.nD Cert.KernelIdeal.τ).loc Cert.KernelIdeal.main_arg0) i)) ∧
    (∀ i, Cert.LibRealSums.IsReal (m ((c.tc : Thread Cert.KernelIdeal.nD Cert.KernelIdeal.τ).loc Cert.KernelIdeal.main_arg2) i)) ∧
    (∀ i, Cert.LibRealSums.IsReal (m ((c.tc : Thread Cert.KernelIdeal.nD Cert.KernelIdeal.τ).loc Cert.KernelIdeal.main_arg3) i)) ∧
    (∀ i, Cert.LibRealSums.IsReal (m ((c.tc : Thread Cert.KernelIdeal.nD Cert.KernelIdeal.τ).loc Cert.KernelIdeal.main_arg4) i)) ∧
    (∀ i, Cert.LibRealSums.IsReal (m ((c.tc : Thread Cert.KernelIdeal.nD Cert.KernelIdeal.τ).loc Cert.KernelIdeal.main_arg5) i)) ∧
    (∀ i, Cert.LibRealSums.IsReal (m ((c.tc : Thread Cert.KernelIdeal.nD Cert.KernelIdeal.τ).loc Cert.KernelIdeal.main_arg6) i)) ∧
    (∀ i, Cert.LibRealSums.IsReal (m ((c.tc : Thread Cert.KernelIdeal.nD Cert.KernelIdeal.τ).loc Cert.KernelIdeal.main_arg7) i)) :=
  args_real (hP := Cert.Pre_finite_inputs.Gen.facts) _ _ _ _ _ _ _ _ (h c)

end Cert.PreReal

end
-- ==== Proof.KHostA.lean ====
/-
  The host stretches of the idealized kernel program, read buffer by buffer.

  Between the launch and the return the program's buffer contents pass seven boundaries (`Gen.W1` … `Gen.W7`).  This
  module follows, through those boundaries, everything the three kernel regions and the last stretch read that a HOST
  operation produced or that is an argument: the two columns of message words (source and destination), the column
  of inverse square roots of the degrees, the weights and biases, the two aggregations (a row gather through the
  source column followed by a row scatter-add through the destination column), and the edge scores at the end.
  The index arrays are the very terms the reference program computes from the same edge list (GraphData).
-/
import proofs.«140676_j35845797053073_2_alg».proof.Proof.Gen.KernelIdeal.Frame
import proofs.«140676_j35845797053073_2_alg».proof.Proof.GraphData
import proofs.«140676_j35845797053073_2_alg».proof.Proof.GcnSpec
import proofs.«140676_j35845797053073_2_alg».proof.Proof.LibAggRows
import Idealize.ShloMosaic.Lib.StableHlo.Run
import Idealize.ShloMosaic.Lib.Pipeline.Value
import Idealize.ShloMosaic.Lib.ValueIdx

noncomputable section

open scoped BigOperators

namespace Cert.KernelIdeal.HostValue

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Cert.ReferenceIdeal.Read (val_main_v3 val_main_v6 val_main_v11)

variable (m : (ℓ : Loc nD τ sig) → Buf (Elt Ideal) ℓ) (ρ : Dev nD → PrngReg)

/-- The edge list on core `c`. -/
abbrev X1 (c : Dev nD) : Cert.Graph.Words := m ((c : Thread nD τ).loc main_arg1)

/-- A buffer that no operation of a stretch writes is left as it was. -/
macro "not_written" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The first stretch: the message words and the degrees -/

/-- The source words of the messages: the listed first endpoints, then one self loop per node. -/
theorem w1_v3 (c : Dev nD) : (W1 m ρ c (Proc.devRef .tc main_v3) : S850000.Idx → BitVec 32)
    = val_main_v3 (F := Ideal) (X1 m c) := by
  show StableHlo.after hostOps0 (W0 m ρ c) (Proc.devRef .tc main_v3) = _
  after_results
  rfl

/-- The destination words of the messages. -/
theorem w1_v6 (c : Dev nD) : (W1 m ρ c (Proc.devRef .tc main_v6) : S850000.Idx → BitVec 32)
    = val_main_v6 (F := Ideal) (X1 m c) := by
  show StableHlo.after hostOps0 (W0 m ρ c) (Proc.devRef .tc main_v6) = _
  after_results
  rfl

/-- The column of inverse square roots of the degrees. -/
theorem w1_v12 (c : Dev nD) : (W1 m ρ c (Proc.devRef .tc main_v12) : S50000x1.Idx → EReal)
    = broadcastInDim S50000x1 ![0] bcast_S50000_S50000x1_0 (val_main_v11 (F := Ideal) (X1 m c)) := by
  show StableHlo.after hostOps0 (W0 m ρ c) (Proc.devRef .tc main_v12) = _
  after_results
  rfl

/-- A vector laid out as a column reads, at row `r`, the vector's entry `r`. -/
theorem bcast_vec_col_apply {α : Type} {a : ℕ} (x : (⟨1, ![a]⟩ : Shape).Idx → α)
    (hb : (⟨1, ![a]⟩ : Shape).BroadcastsInDim ⟨2, ![a, 1]⟩ ![0]) (r : Fin a) (u : Fin 1) :
    broadcastInDim ⟨2, ![a, 1]⟩ ![0] hb x (ix2 r u) = x (ix1 r) := by
  refine broadcastInDim_apply ![0] hb x (ix2 r u) (ix1 r) fun ax => ?_
  match ax with
  | ⟨0, _⟩ =>
    show r.val = if a = 1 then 0 else r.val
    split
    · have := r.isLt; omega
    · rfl

theorem w1_v12_apply (c : Dev nD) (r : Fin 50000) :
    (W1 m ρ c (Proc.devRef .tc main_v12) : S50000x1.Idx → EReal) (ix2 r (0 : Fin 1)) = Cert.Graph.dinv (X1 m c) r := by
  rw [w1_v12]
  exact bcast_vec_col_apply (a := 50000) _ bcast_S50000_S50000x1_0 r 0

theorem w1_arg (c : Dev nD) (b : Ref sig .tc) (hb : b = main_arg0 ∨ b = main_arg1 ∨ b = main_arg2 ∨ b = main_arg3 ∨ b = main_arg4 ∨ b = main_arg5 ∨ b = main_arg6 ∨ b = main_arg7) :
    W1 m ρ c (Proc.devRef .tc b) = W0 m ρ c (Proc.devRef .tc b) := by
  rcases hb with rfl | rfl | rfl | rfl | rfl | rfl | rfl | rfl <;>
  · show StableHlo.after hostOps0 (W0 m ρ c) _ = _
    not_written

end Cert.KernelIdeal.HostValue

end
-- ==== Proof.KAgg.lean ====
/-
  The two host steps of the idealized kernel program that move rows between nodes, read at an entry.

  An aggregation gathers the rows of a node table through the column of source words and scatter-adds them, from
  zero, through the column of destination words: entry `(i, q)` of the result is the sum over the messages `e` landing
  on node `i` of the table's entry `(g e, q)`.  The last stretch reads a per-node score at the two endpoints of every
  listed edge, adds the two and halves the sum.
-/
import proofs.«140676_j35845797053073_2_alg».proof.Proof.Gen.KernelIdeal
import proofs.«140676_j35845797053073_2_alg».proof.Proof.GraphData
import proofs.«140676_j35845797053073_2_alg».proof.Proof.GcnSpec
import proofs.«140676_j35845797053073_2_alg».proof.Proof.LibAggRows
import Idealize.ShloMosaic.Lib.ValueIdx
import Idealize.ShloMosaic.PureOps.Ideal.Laws

noncomputable section

open scoped BigOperators

namespace Cert.KernelIdeal.HostValue

open Cert.KernelIdeal Cert.KernelIdeal.Facts₀ Cert.KernelIdeal.Facts
open Idealize.ShloMosaic Idealize.ShloMosaic.ValueIdx

/-- One aggregation: the rows of `T` gathered through the source column and scatter-added, from zero, through the
    destination column. -/
def aggArr (T : S50000x256.Idx → EReal) (x1 : Cert.Graph.Words) : S50000x256.Idx → EReal :=
  Host.scatterAdd (F := Ideal) scatter_S50000x256_S850000x1_S850000x256_1_0_0_1
    (broadcastInDim S50000x256 ![] bcast_S_S50000x256 (constant (F := Ideal) S_ .f32 0x00000000#32))
    (Cert.Graph.dstIdx x1)
    (Host.gather gather_S50000x256_S850000x1_S850000x256_1_0_n_n_0_1_1256 T (Cert.Graph.srcIdx x1))

/-- Entry `(i, q)` of an aggregation: the sum, from zero, over the messages landing on `i` of the entries
    `(g e, q)` of the table. -/
theorem aggArr_apply (T : S50000x256.Idx → EReal) (x1 : Cert.Graph.Words) (i : Fin 50000) (q : Fin 256) :
    aggArr T x1 (ix2 i q)
      = Cert.Gcn.aggr (Cert.Graph.S x1) (fun e c => T (ix2 (Cert.Graph.g x1 e) c)) i q := by
  unfold aggArr Cert.Gcn.aggr Cert.Graph.S Cert.Graph.g
  refine (Cert.LibAggRows.rowScatterAdd_apply (N := 50000) (E := 850000) (C := 256) (w := 32)
    scatter_S50000x256_S850000x1_S850000x256_1_0_0_1_wf _ _ _ i q).trans ?_
  refine congr (congrArg _ Ideal.ofBits_zero_f32) (Finset.sum_congr rfl fun e _ => ?_)
  exact Cert.LibAggRows.rowGather_apply (N := 50000) (E := 850000) (C := 256) (w := 32) Cert.Graph.N_pos
    gather_S50000x256_S850000x1_S850000x256_1_0_n_n_0_1_1256_wf T (Cert.Graph.srcIdx x1) e q

/-- The edge scores: a per-node score read at the two endpoints of every listed edge, the two added and the sum
    halved. -/
def tailArr (Z : S50000x1.Idx → EReal) (x1 : Cert.Graph.Words) : S800000x1.Idx → EReal :=
  mulf (F := Ideal) (addf (F := Ideal) (Host.gather gather_S50000x1_S800000x1_S800000x1_1_0_n_n_0_1_11 Z (Cert.Graph.endA x1))
      (Host.gather gather_S50000x1_S800000x1_S800000x1_1_0_n_n_0_1_11 Z (Cert.Graph.endB x1)))
    (broadcastInDim S800000x1 ![] bcast_S_S800000x1 (constant (F := Ideal) S_ .f32 0x3F000000#32))

/-- The score of listed edge `e`. -/
theorem tailArr_apply (Z : S50000x1.Idx → EReal) (x1 : Cert.Graph.Words) (e : Fin 800000) :
    tailArr Z x1 (ix2 e (0 : Fin 1))
      = Cert.Gcn.edgeK (fun r => Z (ix2 r (0 : Fin 1))) (Cert.Graph.ea x1) (Cert.Graph.eb x1)
          (Ideal.ofBits .f32 0x3F000000#32) e := by
  unfold tailArr Cert.Gcn.edgeK Cert.Graph.ea Cert.Graph.eb
  rw [mulf_apply, addf_apply]
  refine congr (congrArg _ (congr (congrArg _ ?_) ?_)) rfl
  · exact Cert.LibAggRows.rowGather_apply (N := 50000) (E := 800000) (C := 1) (w := 32) Cert.Graph.N_pos
      gather_S50000x1_S800000x1_S800000x1_1_0_n_n_0_1_11_wf Z (Cert.Graph.endA x1) e 0
  · exact Cert.LibAggRows.rowGather_apply (N := 50000) (E := 800000) (C := 1) (w := 32) Cert.Graph.N_pos
      gather_S50000x1_S800000x1_S800000x1_1_0_n_n_0_1_11_wf Z (Cert.Graph.endB x1) e 0

end Cert.KernelIdeal.HostValue

end
-- ==== Proof.KHostB.lean ====
/-
  The later boundaries of the idealized kernel program: what each host stretch and each region leaves of the
  buffers the regions and the last stretch read.

  The message words, the degree column and the arguments are written once (or never) and carried unchanged through
  every later stretch and region; the two aggregations and the edge scores are the host steps of KAgg applied to a
  region's output array.
-/
import proofs.«140676_j35845797053073_2_alg».proof.Proof.Gen.KernelIdeal.Frame
import proofs.«140676_j35845797053073_2_alg».proof.Proof.GraphData
import proofs.«140676_j35845797053073_2_alg».proof.Proof.GcnSpec
import proofs.«140676_j35845797053073_2_alg».proof.Proof.LibAggRows
import proofs.«140676_j35845797053073_2_alg».proof.Proof.KHostA
import proofs.«140676_j35845797053073_2_alg».proof.Proof.KAgg
import Idealize.ShloMosaic.Lib.StableHlo.Run
import Idealize.ShloMosaic.Lib.Pipeline.Value
import Idealize.ShloMosaic.Lib.ValueIdx

noncomputable section

open scoped BigOperators

namespace Cert.KernelIdeal.HostValue

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Cert.ReferenceIdeal.Read (val_main_v3 val_main_v6 val_main_v11)

variable (m : (ℓ : Loc nD τ sig) → Buf (Elt Ideal) ℓ) (ρ : Dev nD → PrngReg)

/-! ## What the stretches after the first leave alone -/

theorem w3_keep (c : Dev nD) (b : Ref sig .tc)
    (hb : b = main_v3 ∨ b = main_v6 ∨ b = main_v12 ∨ b = main_arg0 ∨ b = main_arg1 ∨ b = main_arg2 ∨ b = main_arg3 ∨ b = main_arg4 ∨ b = main_arg5 ∨ b = main_arg6 ∨ b = main_arg7) :
    W3 m ρ c (Proc.devRef .tc b) = W2 m ρ c (Proc.devRef .tc b) := by
  rcases hb with rfl | rfl | rfl | rfl | rfl | rfl | rfl | rfl | rfl | rfl | rfl <;>
  · show StableHlo.after hostOps1 (W2 m ρ c) _ = _
    not_written

theorem w5_keep (c : Dev nD) (b : Ref sig .tc)
    (hb : b = main_v3 ∨ b = main_v6 ∨ b = main_v12 ∨ b = main_arg0 ∨ b = main_arg1 ∨ b = main_arg2 ∨ b = main_arg3 ∨ b = main_arg4 ∨ b = main_arg5 ∨ b = main_arg6 ∨ b = main_arg7) :
    W5 m ρ c (Proc.devRef .tc b) = W4 m ρ c (Proc.devRef .tc b) := by
  rcases hb with rfl | rfl | rfl | rfl | rfl | rfl | rfl | rfl | rfl | rfl | rfl <;>
  · show StableHlo.after hostOps2 (W4 m ρ c) _ = _
    not_written

theorem w7_v35_0 (c : Dev nD) : W7 m ρ c (Proc.devRef .tc main_v35_0) = W6 m ρ c (Proc.devRef .tc main_v35_0) := by
  show StableHlo.after hostOps3 (W6 m ρ c) _ = _
  not_written

/-! ## The message words at the second and third stretch -/

theorem w2_v3 (c : Dev nD) : (W2 m ρ c (Proc.devRef .tc main_v3) : S850000.Idx → BitVec 32)
    = val_main_v3 (F := Ideal) (X1 m c) :=
  (W2_of_ne m ρ c main_v3 (by decide)).trans (w1_v3 m ρ c)

theorem w2_v6 (c : Dev nD) : (W2 m ρ c (Proc.devRef .tc main_v6) : S850000.Idx → BitVec 32)
    = val_main_v6 (F := Ideal) (X1 m c) :=
  (W2_of_ne m ρ c main_v6 (by decide)).trans (w1_v6 m ρ c)

theorem w4_v3 (c : Dev nD) : (W4 m ρ c (Proc.devRef .tc main_v3) : S850000.Idx → BitVec 32)
    = val_main_v3 (F := Ideal) (X1 m c) :=
  (W4_of_ne m ρ c main_v3 (by decide)).trans ((w3_keep m ρ c main_v3 (.inl rfl)).trans (w2_v3 m ρ c))

theorem w4_v6 (c : Dev nD) : (W4 m ρ c (Proc.devRef .tc main_v6) : S850000.Idx → BitVec 32)
    = val_main_v6 (F := Ideal) (X1 m c) :=
  (W4_of_ne m ρ c main_v6 (by decide)).trans ((w3_keep m ρ c main_v6 (.inr (.inl rfl))).trans (w2_v6 m ρ c))

/-! ## The degree column at the second and third region -/

theorem w3_v12 (c : Dev nD) : W3 m ρ c (Proc.devRef .tc main_v12) = W1 m ρ c (Proc.devRef .tc main_v12) :=
  (w3_keep m ρ c main_v12 (.inr (.inr (.inl rfl)))).trans
    ((W2_arr m ρ c 2).trans (((dat0 (V1 m ρ) c).arrAt_in 2 rfl _).trans (A_eq0 (V1 m ρ) c 2)))

theorem w5_v12 (c : Dev nD) : W5 m ρ c (Proc.devRef .tc main_v12) = W1 m ρ c (Proc.devRef .tc main_v12) :=
  (w5_keep m ρ c main_v12 (.inr (.inr (.inl rfl)))).trans
    ((W4_arr m ρ c 1).trans ((((dat1 (V3 m ρ) c).arrAt_in 1 rfl _).trans (A_eq1 (V3 m ρ) c 1)).trans (w3_v12 m ρ c)))

theorem w3_v12_apply (c : Dev nD) (r : Fin 50000) :
    (W3 m ρ c (Proc.devRef .tc main_v12) : S50000x1.Idx → EReal) (ix2 r (0 : Fin 1)) = Cert.Graph.dinv (X1 m c) r := by
  rw [w3_v12]; exact w1_v12_apply m ρ c r

theorem w5_v12_apply (c : Dev nD) (r : Fin 50000) :
    (W5 m ρ c (Proc.devRef .tc main_v12) : S50000x1.Idx → EReal) (ix2 r (0 : Fin 1)) = Cert.Graph.dinv (X1 m c) r := by
  rw [w5_v12]; exact w1_v12_apply m ρ c r

/-! ## The arguments where the regions and the last stretch read them -/

theorem w1_arg_eq (c : Dev nD) (b : Ref sig .tc) (hb : b = main_arg0 ∨ b = main_arg1 ∨ b = main_arg2 ∨ b = main_arg3 ∨ b = main_arg4 ∨ b = main_arg5 ∨ b = main_arg6 ∨ b = main_arg7) :
    W1 m ρ c (Proc.devRef .tc b) = m ((c : Thread nD τ).loc b) :=
  (w1_arg m ρ c b hb).trans rfl

theorem w3_arg3 (c : Dev nD) : W3 m ρ c (Proc.devRef .tc main_arg3) = m ((c : Thread nD τ).loc main_arg3) :=
  (w3_keep m ρ c main_arg3 (by simp)).trans ((W2_of_ne m ρ c main_arg3 (by decide)).trans (w1_arg_eq m ρ c main_arg3 (by simp)))

theorem w3_arg4 (c : Dev nD) : W3 m ρ c (Proc.devRef .tc main_arg4) = m ((c : Thread nD τ).loc main_arg4) :=
  (w3_keep m ρ c main_arg4 (by simp)).trans ((W2_of_ne m ρ c main_arg4 (by decide)).trans (w1_arg_eq m ρ c main_arg4 (by simp)))

theorem w5_arg5 (c : Dev nD) : W5 m ρ c (Proc.devRef .tc main_arg5) = m ((c : Thread nD τ).loc main_arg5) :=
  (w5_keep m ρ c main_arg5 (by simp)).trans ((W4_of_ne m ρ c main_arg5 (by decide)).trans ((w3_keep m ρ c main_arg5 (by simp)).trans
    ((W2_of_ne m ρ c main_arg5 (by decide)).trans (w1_arg_eq m ρ c main_arg5 (by simp)))))

theorem w5_arg6 (c : Dev nD) : W5 m ρ c (Proc.devRef .tc main_arg6) = m ((c : Thread nD τ).loc main_arg6) :=
  (w5_keep m ρ c main_arg6 (by simp)).trans ((W4_of_ne m ρ c main_arg6 (by decide)).trans ((w3_keep m ρ c main_arg6 (by simp)).trans
    ((W2_of_ne m ρ c main_arg6 (by decide)).trans (w1_arg_eq m ρ c main_arg6 (by simp)))))

theorem w5_arg7 (c : Dev nD) : W5 m ρ c (Proc.devRef .tc main_arg7) = m ((c : Thread nD τ).loc main_arg7) :=
  (w5_keep m ρ c main_arg7 (by simp)).trans ((W4_of_ne m ρ c main_arg7 (by decide)).trans ((w3_keep m ρ c main_arg7 (by simp)).trans
    ((W2_of_ne m ρ c main_arg7 (by decide)).trans (w1_arg_eq m ρ c main_arg7 (by simp)))))

theorem w6_arg1 (c : Dev nD) : W6 m ρ c (Proc.devRef .tc main_arg1) = m ((c : Thread nD τ).loc main_arg1) :=
  (W6_of_ne m ρ c main_arg1 (by decide)).trans ((w5_keep m ρ c main_arg1 (by simp)).trans ((W4_of_ne m ρ c main_arg1 (by decide)).trans
    ((w3_keep m ρ c main_arg1 (by simp)).trans ((W2_of_ne m ρ c main_arg1 (by decide)).trans (w1_arg_eq m ρ c main_arg1 (by simp))))))

/-! ## The two aggregations and the edge scores -/

/-- After the second stretch: the first region's output, aggregated. -/
theorem w3_v23 (c : Dev nD) : (W3 m ρ c (Proc.devRef .tc main_v23) : S50000x256.Idx → EReal)
    = aggArr (W2 m ρ c (Proc.devRef .tc main_v13)) (X1 m c) := by
  show StableHlo.after hostOps1 (W2 m ρ c) (Proc.devRef .tc main_v23) = _
  after_results
  rw [w2_v3, w2_v6]
  rfl

/-- After the third stretch: the second region's output, aggregated. -/
theorem w5_v34 (c : Dev nD) : (W5 m ρ c (Proc.devRef .tc main_v34) : S50000x256.Idx → EReal)
    = aggArr (W4 m ρ c (Proc.devRef .tc main_v24)) (X1 m c) := by
  show StableHlo.after hostOps2 (W4 m ρ c) (Proc.devRef .tc main_v34) = _
  after_results
  rw [w4_v3, w4_v6]
  rfl

set_option maxHeartbeats 4000000 in
/-- After the last stretch: the edge scores from the third region's per-node score. -/
theorem w7_v56 (c : Dev nD) : (W7 m ρ c (Proc.devRef .tc main_v56) : S800000x1.Idx → EReal)
    = tailArr (W6 m ρ c (Proc.devRef .tc main_v35_1)) (X1 m c) := by
  show StableHlo.after hostOps3 (W6 m ρ c) (Proc.devRef .tc main_v56) = _
  after_results_simp
  rw [w6_arg1]
  rfl

end Cert.KernelIdeal.HostValue

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibColumnLayouts.lean ====
/-
  Two layout operations read at an entry.

  A column `[a, 1]` spread along the rows of `[a, b]` reads, at entry `(p, c)`, the column's entry `(p, 0)`. A vector
  `[n]` viewed as the one-row matrix `[1, n]` reads, at entry `(0, q)`, the vector's entry `q`.
-/
import Idealize.ShloMosaic.Lib.Pipeline.Value
import Idealize.ShloMosaic.Lib.ValueIdx

namespace Cert.KernelIdeal.Pay

open Idealize.ShloMosaic Idealize.ShloMosaic.ValueIdx

/-- A column `[a, 1]` broadcast along the rows of `[a, b]`: entry `(p, c)` reads the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[n]` viewed as the one-row matrix `[1, n]`: entry `(0, q)` reads the vector's entry `q`. -/
theorem shapeCast_n_1n_apply {α : Type} {n : ℕ} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) := by
  refine shapeCast_apply v h (ix2 (0 : Fin 1) q) (ix1 q) ?_
  rewrite [Shape.rowMajor_val_two, Shape.rowMajor_val_one]
  show q.val = 0 * n + q.val
  omega

end Cert.KernelIdeal.Pay
-- ==== Proof.Regions0.lean ====
/-
  What the first TensorCore region leaves in its arrays, read at an entry, on the extended reals.

  The region's body multiplies a block of 2000 rows of the node features by the whole weight matrix and scales each
  row by that row's entry of a column. Its output array, read at row r and column q, is therefore
  (sum over k of x(r, k) * w(k, q)) * s(r, 0); the arrays it only reads are left as they were.
-/
import proofs.«140676_j35845797053073_2_alg».proof.Proof.Gen.KernelIdeal.Frame
import proofs.«140676_j35845797053073_2_alg».proof.Proof.LibMatmulPlain
import proofs.«140676_j35845797053073_2_alg».proof.Proof.LibKeepdims
import proofs.«140676_j35845797053073_2_alg».proof.Proof.LibColumnLayouts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.Pipeline (Dat)
open Idealize.ShloMosaic.TcCoe

/-! ## The body's stored value at an entry of its block -/

/-- The stored block at (p, q): the product of row p of the first operand with column q of the second, times the
    column operand's entry of row p. Rounding to the narrower format is the identity on the extended reals. -/
theorem pay0_apply (x0 : Vec Ideal S2000x256 .f32) (x1 : Vec Ideal S256x256 .f32) (x2 : Vec Ideal S2000x1 .f32)
    (p : Fin 2000) (q : Fin 256) :
    k0_pay1 x0 x1 x2 (ix2 p q) = (∑ k : Fin 256, x0 (ix2 p k) * x1 (ix2 k q)) * x2 (ix2 p (0 : Fin 1)) := by
  unfold k0_pay1
  refine (mulf_apply _ _ _).trans ?_
  refine congrArg₂ (· * ·) ?_ ?_
  · refine (Cert.LibMatmulPlain.matmul_zero_apply dot_S2000x256_S256x256_S2000x256_1_0_0_1_n_n rfl rfl rfl rfl rfl rfl none _ _ p q).trans ?_
    rfl
  · refine (Cert.LibKeepdims.broadcastTo_a1_ab_apply _ broadcasts_S2000x1_S2000x256 p q).trans ?_
    exact congrFun (shapeCast_self x2 shapeCasts_S2000x1_S2000x1) _

/-! ## The arrays the region only reads -/

variable (V : (c : Dev nD) → (b : Ref sig .tc) → Buf (Elt Ideal) ((c : Thread nD τ).loc b)) (c : Dev nD)

/-- An array the region only reads is left as it was entered. -/
theorem region0_in (w : Fin cfg0.W) (hw : w ≠ 3) : (dat0 (F := Ideal) V c).arrAt w cfg0.N = V c (Pipeline.arrRef spec0 w) := by
  have hin : (cfg0.win w).isOut = false := by
    match w with
    | ⟨0, _⟩ => rfl
    | ⟨1, _⟩ => rfl
    | ⟨2, _⟩ => rfl
    | ⟨3, _⟩ => exact absurd rfl hw
  exact ((dat0 V c).arrAt_in w hin _).trans (A_eq0 V c w)

/-! ## From the blocks to the array -/

theorem zeros2 : (![0, 0] : Fin 2 → Nat) = fun _ => 0 := funext fun a => by fin_cases a <;> rfl

/-- The block index of every window of the region at every point of its grid of 25 points: the row windows are
    at block row t, the weight window is the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (r, q) of the product x · w with row r scaled by s(r, 0). -/
abbrev entry0 (x : S50000x256.Idx → EReal) (w : S256x256.Idx → EReal) (s : S50000x1.Idx → EReal)
    (r : Fin 50000) (q : Fin 256) : EReal :=
  (∑ k : Fin 256, x (ix2 r k) * w (ix2 k q)) * s (ix2 r (0 : Fin 1))

/-- The same as one function on the output array's indices. -/
def G0 (x : S50000x256.Idx → EReal) (w : S256x256.Idx → EReal) (s : S50000x1.Idx → EReal) : S50000x256.Idx → EReal :=
  fun i => entry0 x w s ⟨(i 0).val, idx2_lt0 i⟩ ⟨(i 1).val, idx2_lt1 i⟩

theorem G0_apply (x : S50000x256.Idx → EReal) (w : S256x256.Idx → EReal) (s : S50000x1.Idx → EReal)
    (r : Fin 50000) (q : Fin 256) : G0 x w s (ix2 r q) = entry0 x w s r q := rfl

/-- What point t writes back is block t of that function. -/
theorem flushed0_eq (t : Fin cfg0.N) :
    (dat0 (F := Ideal) V c).flushed 3 t
      = ((cfg0.win 3).blk t).view.read (Elt Ideal) (G0 (V c main_arg0) (V c main_arg2) (V c main_v12)) := by
  show (cfg0.win 3).cut (grid0.coords t) ((dat0 V c).after 3 t) = _
  rw [after0_3]
  unfold out0_3
  rw [View.canon_unit_zero zeros2]
  simp only [View.ld_unit_zero (S := S2000x256) zeros2, View.ld_unit_zero (S := S256x256) zeros2, View.ld_unit_zero (S := S2000x1) zeros2]
  obtain ⟨e00, e01, e10, e11, e20, e21, e30, e31⟩ := idx_facts0 t
  have ht : t.val < 25 := t.isLt
  funext j
  obtain ⟨p, q, rfl⟩ : ∃ (p : Fin 2000) (q : Fin 256), j = ix2 p q := ⟨j 0, j 1, eq_ix2 j⟩
  refine (pay0_apply _ _ _ p q).trans ?_
  have hrow : t.val * 2000 + p.val < 50000 := by omega
  have h0 : ∀ k : Fin 256, iblk0 V c 0 t (ix2 p k)
      = (V c main_arg0 : S50000x256.Idx → EReal) (ix2 (⟨t.val * 2000 + p.val, hrow⟩ : Fin 50000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  have h1 : ∀ k : Fin 256, iblk0 V c 1 t (ix2 k q) = (V c main_arg2 : S256x256.Idx → EReal) (ix2 k q) := fun k => by
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 256 + 1 * q.val = q.val; omega
  have h2 : iblk0 V c 2 t (ix2 p (0 : Fin 1))
      = (V c main_v12 : S50000x1.Idx → EReal) (ix2 (⟨t.val * 2000 + p.val, hrow⟩ : Fin 50000) (0 : Fin 1)) := by
    show V c main_v12 (((cfg0.win 2).blk t).view.emb (ix2 p (0 : Fin 1))) = _
    refine congrArg (V c main_v12) (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  have h3 : ((cfg0.win 3).blk t).view.emb (ix2 p q) = (ix2 (⟨t.val * 2000 + p.val, hrow⟩ : Fin 50000) q : S50000x256.Idx) := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  show _ = G0 (V c main_arg0) (V c main_arg2) (V c main_v12) (((cfg0.win 3).blk t).view.emb (ix2 p q))
  rw [h3, G0_apply]
  exact congrArg₂ (· * ·) (Finset.sum_congr rfl fun k _ => congrArg₂ (· * ·) (h0 k) (h1 k)) h2

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v13).slice (win0_3.rect t)).set ↔ _
  rw [View.set_slice_whole, Rect.mem_set_unit]
  exact Iff.rfl

/-- Row r of the output array lies in the block of point r / 2000, which is written back. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hq : (i 0).val / 2000 < 25 := by omega
  obtain ⟨-, -, -, -, -, -, e30, e31⟩ := idx_facts0 ⟨(i 0).val / 2000, hq⟩
  have e30' : win0_3.index ⟨(i 0).val / 2000, hq⟩ (0 : Fin 2) = (i 0).val / 2000 := e30
  refine ⟨⟨(i 0).val / 2000, hq⟩, flush0_3 _, ?_⟩
  rw [mem_blk0]
  intro a
  match a with
  | ⟨0, _⟩ =>
    show win0_3.index ⟨(i 0).val / 2000, hq⟩ (0 : Fin 2) * 2000 ≤ (i 0).val
      ∧ (i 0).val < win0_3.index ⟨(i 0).val / 2000, hq⟩ (0 : Fin 2) * 2000 + 2000
    omega
  | ⟨1, _⟩ =>
    show win0_3.index ⟨(i 0).val / 2000, hq⟩ (1 : Fin 2) * 256 ≤ (i 1).val
      ∧ (i 1).val < win0_3.index ⟨(i 0).val / 2000, hq⟩ (1 : Fin 2) * 256 + 256
    omega

/-- The output array after the region, as one function of the arrays it read. -/
theorem final0 : (dat0 (F := Ideal) V c).arrAt 3 cfg0.N = G0 (V c main_arg0) (V c main_arg2) (V c main_v12) :=
  (dat0 V c).arrAt_eq_of_cover 3 _ (fun t _ => flushed0_eq V c t) cover0

/-- The output array after the region at entry (r, q). -/
theorem region0_out (r : Fin 50000) (q : Fin 256) :
    (dat0 (F := Ideal) V c).arrAt 3 cfg0.N (ix2 r q) = entry0 (V c main_arg0) (V c main_arg2) (V c main_v12) r q :=
  (congrFun (final0 V c) (ix2 r q)).trans (G0_apply _ _ _ r q)

end Cert.KernelIdeal.RegionValue

end
-- ==== Proof.Regions1.lean ====
/-
  What the second TensorCore region leaves in its arrays, read at an entry, on the extended reals.

  The region's body takes a block of 2000 rows, scales each row by that row's entry of a column, adds a bias along
  the columns and clamps below at zero; it then multiplies the result by the whole weight matrix and scales each row
  again. Its output array at row r and column q is therefore
  (sum over k of max(x(r, k) * s(r, 0) + b(k), 0) * w(k, q)) * s(r, 0); the arrays it only reads are left as they were.
-/
import proofs.«140676_j35845797053073_2_alg».proof.Proof.Gen.KernelIdeal.Frame
import proofs.«140676_j35845797053073_2_alg».proof.Proof.LibMatmulPlain
import proofs.«140676_j35845797053073_2_alg».proof.Proof.LibKeepdims
import proofs.«140676_j35845797053073_2_alg».proof.Proof.LibColumnLayouts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.Pipeline (Dat)
open Idealize.ShloMosaic.TcCoe

/-! ## The body's stored value at an entry of its block -/

/-- The scaled, shifted and clamped block at (p, k). -/
theorem act1_apply (v0 : Vec Ideal S2000x256 .f32) (v2 : Vec Ideal S2000x1 .f32) (v6 : Vec Ideal S256 .f32)
    (p : Fin 2000) (k : Fin 256) :
    maximumf (addf (mulf (shapeCast S2000x256 v0 shapeCasts_S2000x256_S2000x256)
          (broadcastTo S2000x256 (shapeCast S2000x1 v2 shapeCasts_S2000x1_S2000x1) broadcasts_S2000x1_S2000x256))
        (broadcastTo S2000x256 (shapeCast S1x256 v6 shapeCasts_S256_S1x256) broadcasts_S1x256_S2000x256))
      (broadcast S2000x256 (Scalar.ofBits (F := Ideal) .f32 0x00000000#32)) (ix2 p k)
      = max (v0 (ix2 p k) * v2 (ix2 p (0 : Fin 1)) + v6 (ix1 k)) (Ideal.ofBits .f32 0x00000000#32) := by
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · exact congrFun (shapeCast_self v0 shapeCasts_S2000x256_S2000x256) _
    · refine (Cert.LibKeepdims.broadcastTo_a1_ab_apply _ broadcasts_S2000x1_S2000x256 p k).trans ?_
      exact congrFun (shapeCast_self v2 shapeCasts_S2000x1_S2000x1) _
  · refine (broadcastTo_1b_ab_apply _ broadcasts_S1x256_S2000x256 p k).trans ?_
    exact Cert.KernelIdeal.Pay.shapeCast_n_1n_apply v6 shapeCasts_S256_S1x256 k

/-- The stored block at (p, q): row p of the clamped block times column q of the weights, scaled by the column
    operand's entry of row p. Rounding to the narrower format is the identity on the extended reals. -/
theorem pay1_apply (v0 : Vec Ideal S2000x256 .f32) (v2 : Vec Ideal S2000x1 .f32) (v6 : Vec Ideal S256 .f32)
    (v13 : Vec Ideal S256x256 .f32) (v16 : Vec Ideal S2000x1 .f32) (p : Fin 2000) (q : Fin 256) :
    k1_pay1 v0 v2 v6 v13 v16 (ix2 p q)
      = (∑ k : Fin 256, max (v0 (ix2 p k) * v2 (ix2 p (0 : Fin 1)) + v6 (ix1 k)) (Ideal.ofBits .f32 0x00000000#32)
          * v13 (ix2 k q)) * v16 (ix2 p (0 : Fin 1)) := by
  unfold k1_pay1
  refine (mulf_apply _ _ _).trans ?_
  refine congrArg₂ (· * ·) ?_ ?_
  · refine (Cert.LibMatmulPlain.matmul_zero_apply dot_S2000x256_S256x256_S2000x256_1_0_0_1_n_n rfl rfl rfl rfl rfl rfl none _ _ p q).trans ?_
    refine Finset.sum_congr rfl fun k _ => congrArg₂ (· * ·) ?_ rfl
    exact act1_apply v0 v2 v6 p k
  · refine (Cert.LibKeepdims.broadcastTo_a1_ab_apply _ broadcasts_S2000x1_S2000x256 p q).trans ?_
    exact congrFun (shapeCast_self v16 shapeCasts_S2000x1_S2000x1) _

/-! ## The arrays the region only reads -/

variable (V : (c : Dev nD) → (b : Ref sig .tc) → Buf (Elt Ideal) ((c : Thread nD τ).loc b)) (c : Dev nD)

/-- An array the region only reads is left as it was entered. -/
theorem region1_in (w : Fin cfg1.W) (hw : w ≠ 4) : (dat1 (F := Ideal) V c).arrAt w cfg1.N = V c (Pipeline.arrRef spec1 w) := by
  have hin : (cfg1.win w).isOut = false := by
    match w with
    | ⟨0, _⟩ => rfl
    | ⟨1, _⟩ => rfl
    | ⟨2, _⟩ => rfl
    | ⟨3, _⟩ => rfl
    | ⟨4, _⟩ => exact absurd rfl hw
  exact ((dat1 V c).arrAt_in w hin _).trans (A_eq1 V c w)

/-! ## From the blocks to the array -/

theorem zeros2_r1 : (![0, 0] : Fin 2 → Nat) = fun _ => 0 := funext fun a => by fin_cases a <;> rfl
theorem zeros1_r1 : (![0] : Fin 1 → Nat) = fun _ => 0 := funext fun a => by fin_cases a; rfl

/-- The block index of every window of the region at every point of its grid of 25 points: the row windows are
    at block row t, the bias and weight windows are whole arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, q) of the product of the clamped rows with w, row r scaled by s(r, 0). -/
abbrev entry1 (x : S50000x256.Idx → EReal) (s : S50000x1.Idx → EReal) (b : S256.Idx → EReal) (w : S256x256.Idx → EReal)
    (r : Fin 50000) (q : Fin 256) : EReal :=
  (∑ k : Fin 256, max (x (ix2 r k) * s (ix2 r (0 : Fin 1)) + b (ix1 k)) (Ideal.ofBits .f32 0x00000000#32) * w (ix2 k q))
    * s (ix2 r (0 : Fin 1))

/-- The same as one function on the output array's indices. -/
def G1 (x : S50000x256.Idx → EReal) (s : S50000x1.Idx → EReal) (b : S256.Idx → EReal) (w : S256x256.Idx → EReal) :
    S50000x256.Idx → EReal :=
  fun i => entry1 x s b w ⟨(i 0).val, idx2_lt0 i⟩ ⟨(i 1).val, idx2_lt1 i⟩

theorem G1_apply (x : S50000x256.Idx → EReal) (s : S50000x1.Idx → EReal) (b : S256.Idx → EReal) (w : S256x256.Idx → EReal)
    (r : Fin 50000) (q : Fin 256) : G1 x s b w (ix2 r q) = entry1 x s b w r q := rfl

/-- What point t writes back is block t of that function. -/
theorem flushed1_eq (t : Fin cfg1.N) :
    (dat1 (F := Ideal) V c).flushed 4 t
      = ((cfg1.win 4).blk t).view.read (Elt Ideal) (G1 (V c main_v23) (V c main_v12) (V c main_arg3) (V c main_arg4)) := by
  show (cfg1.win 4).cut (grid1.coords t) ((dat1 V c).after 4 t) = _
  rw [after1_4]
  unfold out1_4
  rw [View.canon_unit_zero zeros2_r1]
  simp only [View.ld_unit_zero (S := S2000x256) zeros2_r1, View.ld_unit_zero (S := S256x256) zeros2_r1,
    View.ld_unit_zero (S := S2000x1) zeros2_r1, View.ld_unit_zero (S := S256) zeros1_r1]
  obtain ⟨e00, e01, e10, e11, e20, e30, e31, e40, e41⟩ := idx_facts1 t
  have ht : t.val < 25 := t.isLt
  funext j
  obtain ⟨p, q, rfl⟩ : ∃ (p : Fin 2000) (q : Fin 256), j = ix2 p q := ⟨j 0, j 1, eq_ix2 j⟩
  refine (pay1_apply _ _ _ _ _ p q).trans ?_
  have hrow : t.val * 2000 + p.val < 50000 := by omega
  have h0 : ∀ k : Fin 256, iblk1 V c 0 t (ix2 p k)
      = (V c main_v23 : S50000x256.Idx → EReal) (ix2 (⟨t.val * 2000 + p.val, hrow⟩ : Fin 50000) k) := fun k => by
    show V c main_v23 (((cfg1.win 0).blk t).view.emb (ix2 p k)) = _
    refine congrArg (V c main_v23) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  have h1 : iblk1 V c 1 t (ix2 p (0 : Fin 1))
      = (V c main_v12 : S50000x1.Idx → EReal) (ix2 (⟨t.val * 2000 + p.val, hrow⟩ : Fin 50000) (0 : Fin 1)) := by
    show V c main_v12 (((cfg1.win 1).blk t).view.emb (ix2 p (0 : Fin 1))) = _
    refine congrArg (V c main_v12) (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ∀ k : Fin 256, iblk1 V c 2 t (ix1 k) = (V c main_arg3 : S256.Idx → EReal) (ix1 k) := fun k => by
    show V c main_arg3 (((cfg1.win 2).blk t).view.emb (ix1 k)) = _
    refine congrArg (V c main_arg3) (funext fun a => Fin.ext ?_)
    match a with
    | ⟨0, _⟩ => show win1_2.index t (0 : Fin 1) * 256 + 1 * k.val = k.val; omega
  have h3 : ∀ k : Fin 256, iblk1 V c 3 t (ix2 k q) = (V c main_arg4 : S256x256.Idx → EReal) (ix2 k q) := fun k => by
    show V c main_arg4 (((cfg1.win 3).blk t).view.emb (ix2 k q)) = _
    refine congrArg (V c main_arg4) (funext fun a => Fin.ext ?_)
    match a with
    | ⟨0, _⟩ => show win1_3.index t (0 : Fin 2) * 256 + 1 * k.val = k.val; omega
    | ⟨1, _⟩ => show win1_3.index t (1 : Fin 2) * 256 + 1 * q.val = q.val; omega
  have h4 : ((cfg1.win 4).blk t).view.emb (ix2 p q) = (ix2 (⟨t.val * 2000 + p.val, hrow⟩ : Fin 50000) q : S50000x256.Idx) := by
    funext a; apply Fin.ext
    match a with
    | ⟨0, _⟩ => show win1_4.index t (0 : Fin 2) * 2000 + 1 * p.val = t.val * 2000 + p.val; omega
    | ⟨1, _⟩ => show win1_4.index t (1 : Fin 2) * 256 + 1 * q.val = q.val; omega
  show _ = G1 (V c main_v23) (V c main_v12) (V c main_arg3) (V c main_arg4) (((cfg1.win 4).blk t).view.emb (ix2 p q))
  rw [h4, G1_apply]
  refine congrArg₂ (· * ·) (Finset.sum_congr rfl fun k _ => congrArg₂ (· * ·) ?_ (h3 k)) h1
  exact congrArg₂ max (congrArg₂ (· + ·) (congrArg₂ (· * ·) (h0 k) h1) (h2 k)) rfl

/-- An index of the output array is in point t's block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v24).slice (win1_4.rect t)).set ↔ _
  rw [View.set_slice_whole, Rect.mem_set_unit]
  exact Iff.rfl

/-- Row r of the output array lies in the block of point r / 2000, which is written back. -/
theorem cover1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hq : (i 0).val / 2000 < 25 := by omega
  obtain ⟨-, -, -, -, -, -, -, e40, e41⟩ := idx_facts1 ⟨(i 0).val / 2000, hq⟩
  have e40' : win1_4.index ⟨(i 0).val / 2000, hq⟩ (0 : Fin 2) = (i 0).val / 2000 := e40
  refine ⟨⟨(i 0).val / 2000, hq⟩, flush1_4 _, ?_⟩
  rw [mem_blk1]
  intro a
  match a with
  | ⟨0, _⟩ =>
    show win1_4.index ⟨(i 0).val / 2000, hq⟩ (0 : Fin 2) * 2000 ≤ (i 0).val
      ∧ (i 0).val < win1_4.index ⟨(i 0).val / 2000, hq⟩ (0 : Fin 2) * 2000 + 2000
    omega
  | ⟨1, _⟩ =>
    show win1_4.index ⟨(i 0).val / 2000, hq⟩ (1 : Fin 2) * 256 ≤ (i 1).val
      ∧ (i 1).val < win1_4.index ⟨(i 0).val / 2000, hq⟩ (1 : Fin 2) * 256 + 256
    omega

/-- The output array after the region, as one function of the arrays it read. -/
theorem final1 : (dat1 (F := Ideal) V c).arrAt 4 cfg1.N = G1 (V c main_v23) (V c main_v12) (V c main_arg3) (V c main_arg4) :=
  (dat1 V c).arrAt_eq_of_cover 4 _ (fun t _ => flushed1_eq V c t) cover1

/-- The output array after the region at entry (r, q). -/
theorem region1_out (r : Fin 50000) (q : Fin 256) :
    (dat1 (F := Ideal) V c).arrAt 4 cfg1.N (ix2 r q)
      = entry1 (V c main_v23) (V c main_v12) (V c main_arg3) (V c main_arg4) r q :=
  (congrFun (final1 V c) (ix2 r q)).trans (G1_apply _ _ _ _ r q)

end Cert.KernelIdeal.RegionValue

end
-- ==== Proof.Regions2.lean ====
/-
  What the third TensorCore region leaves in its arrays, read at an entry, on the extended reals.

  The region's body takes a block of 2000 rows, scales each row by that row's entry of a column, adds a bias along
  the columns and clamps below at zero: that is its first output. Its second output is the product of those rows
  with a weight column, plus a scalar. So the first output array at row r and column q is
  max(x(r, q) * s(r, 0) + b(q), 0), the second at row r is the sum over k of that times w(k, 0), plus the scalar;
  the arrays the region only reads are left as they were.
-/
import proofs.«140676_j35845797053073_2_alg».proof.Proof.Gen.KernelIdeal.Frame
import proofs.«140676_j35845797053073_2_alg».proof.Proof.LibMatmulPlain
import proofs.«140676_j35845797053073_2_alg».proof.Proof.LibKeepdims
import proofs.«140676_j35845797053073_2_alg».proof.Proof.LibColumnLayouts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.Pipeline (Dat)
open Idealize.ShloMosaic.TcCoe

/-! ## The body's stored values at an entry of their blocks -/

/-- The first stored block at (p, k): scaled, shifted and clamped. -/
theorem pay2h_apply (v0 : Vec Ideal S2000x256 .f32) (v2 : Vec Ideal S2000x1 .f32) (v6 : Vec Ideal S256 .f32)
    (p : Fin 2000) (k : Fin 256) :
    k2_pay1 v0 v2 v6 (ix2 p k)
      = max (v0 (ix2 p k) * v2 (ix2 p (0 : Fin 1)) + v6 (ix1 k)) (Ideal.ofBits .f32 0x00000000#32) := by
  unfold k2_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · exact congrFun (shapeCast_self v0 shapeCasts_S2000x256_S2000x256) _
    · refine (Cert.LibKeepdims.broadcastTo_a1_ab_apply _ broadcasts_S2000x1_S2000x256 p k).trans ?_
      exact congrFun (shapeCast_self v2 shapeCasts_S2000x1_S2000x1) _
  · refine (broadcastTo_1b_ab_apply _ broadcasts_S1x256_S2000x256 p k).trans ?_
    exact Cert.KernelIdeal.Pay.shapeCast_n_1n_apply v6 shapeCasts_S256_S1x256 k

/-- The second stored block at (p, 0): row p of the first block times the weight column, plus the scalar.
    Rounding to the narrower format is the identity on the extended reals. -/
theorem pay2z_apply (v0 : Vec Ideal S2000x256 .f32) (v2 : Vec Ideal S2000x1 .f32) (v6 : Vec Ideal S256 .f32)
    (v14 : Vec Ideal S256x1 .f32) (v17 : Vec Ideal S1 .f32) (p : Fin 2000) :
    k2_pay2 v0 v2 v6 v14 v17 (ix2 p (0 : Fin 1))
      = (∑ k : Fin 256, max (v0 (ix2 p k) * v2 (ix2 p (0 : Fin 1)) + v6 (ix1 k)) (Ideal.ofBits .f32 0x00000000#32)
          * v14 (ix2 k (0 : Fin 1))) + v17 (ix1 (0 : Fin 1)) := by
  unfold k2_pay2
  refine (addf_apply _ _ _).trans ?_
  refine congrArg₂ (· + ·) ?_ ?_
  · refine (Cert.LibMatmulPlain.matmul_zero_apply dot_S2000x256_S256x1_S2000x1_1_0_0_1_n_n rfl rfl rfl rfl rfl rfl none _ _ p (0 : Fin 1)).trans ?_
    refine Finset.sum_congr rfl fun k _ => congrArg₂ (· * ·) ?_ rfl
    exact pay2h_apply v0 v2 v6 p k
  · refine (broadcastTo_1b_ab_apply _ broadcasts_S1x1_S2000x1 p (0 : Fin 1)).trans ?_
    exact Cert.KernelIdeal.Pay.shapeCast_n_1n_apply v17 shapeCasts_S1_S1x1 (0 : Fin 1)

/-! ## The arrays the region only reads -/

variable (V : (c : Dev nD) → (b : Ref sig .tc) → Buf (Elt Ideal) ((c : Thread nD τ).loc b)) (c : Dev nD)

/-- An array the region only reads is left as it was entered. -/
theorem region2_in (w : Fin cfg2.W) (hw : w ≠ 5 ∧ w ≠ 6) :
    (dat2 (F := Ideal) V c).arrAt w cfg2.N = V c (Pipeline.arrRef spec2 w) := by
  have hin : (cfg2.win w).isOut = false := by
    match w with
    | ⟨0, _⟩ => rfl
    | ⟨1, _⟩ => rfl
    | ⟨2, _⟩ => rfl
    | ⟨3, _⟩ => rfl
    | ⟨4, _⟩ => rfl
    | ⟨5, _⟩ => exact absurd rfl hw.1
    | ⟨6, _⟩ => exact absurd rfl hw.2
  exact ((dat2 V c).arrAt_in w hin _).trans (A_eq2 V c w)

/-! ## From the blocks to the arrays -/

theorem zeros2_r2 : (![0, 0] : Fin 2 → Nat) = fun _ => 0 := funext fun a => by fin_cases a <;> rfl
theorem zeros1_r2 : (![0] : Fin 1 → Nat) = fun _ => 0 := funext fun a => by fin_cases a; rfl

/-- The block index of every window of the region at every point of its grid of 25 points: the row windows are
    at block row t, the bias, weight and scalar windows are whole arrays. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Entry (r, q) of the scaled, shifted and clamped rows. -/
abbrev entry2h (x : S50000x256.Idx → EReal) (s : S50000x1.Idx → EReal) (b : S256.Idx → EReal)
    (r : Fin 50000) (q : Fin 256) : EReal :=
  max (x (ix2 r q) * s (ix2 r (0 : Fin 1)) + b (ix1 q)) (Ideal.ofBits .f32 0x00000000#32)

/-- Row r of their product with the weight column, plus the scalar. -/
abbrev entry2z (x : S50000x256.Idx → EReal) (s : S50000x1.Idx → EReal) (b : S256.Idx → EReal) (w : S256x1.Idx → EReal)
    (a : S1.Idx → EReal) (r : Fin 50000) : EReal :=
  (∑ k : Fin 256, max (x (ix2 r k) * s (ix2 r (0 : Fin 1)) + b (ix1 k)) (Ideal.ofBits .f32 0x00000000#32)
      * w (ix2 k (0 : Fin 1))) + a (ix1 (0 : Fin 1))

/-- The same as functions on the output arrays' indices. -/
def G2h (x : S50000x256.Idx → EReal) (s : S50000x1.Idx → EReal) (b : S256.Idx → EReal) : S50000x256.Idx → EReal :=
  fun i => entry2h x s b ⟨(i 0).val, idx2_lt0 i⟩ ⟨(i 1).val, idx2_lt1 i⟩

def G2z (x : S50000x256.Idx → EReal) (s : S50000x1.Idx → EReal) (b : S256.Idx → EReal) (w : S256x1.Idx → EReal)
    (a : S1.Idx → EReal) : S50000x1.Idx → EReal :=
  fun i => entry2z x s b w a ⟨(i 0).val, idx2_lt0 i⟩

theorem G2h_apply (x : S50000x256.Idx → EReal) (s : S50000x1.Idx → EReal) (b : S256.Idx → EReal)
    (r : Fin 50000) (q : Fin 256) : G2h x s b (ix2 r q) = entry2h x s b r q := rfl

theorem G2z_apply (x : S50000x256.Idx → EReal) (s : S50000x1.Idx → EReal) (b : S256.Idx → EReal) (w : S256x1.Idx → EReal)
    (a : S1.Idx → EReal) (r : Fin 50000) (u : Fin 1) : G2z x s b w a (ix2 r u) = entry2z x s b w a r := rfl

/-- What point t writes back to the first output is block t of the first function. -/
theorem flushed2h_eq (t : Fin cfg2.N) :
    (dat2 (F := Ideal) V c).flushed 5 t
      = ((cfg2.win 5).blk t).view.read (Elt Ideal) (G2h (V c main_v34) (V c main_v12) (V c main_arg5)) := by
  show (cfg2.win 5).cut (grid2.coords t) ((dat2 V c).after 5 t) = _
  rw [after2_5]
  unfold out2_5
  rw [View.canon_unit_zero zeros2_r2]
  simp only [View.ld_unit_zero (S := S2000x256) zeros2_r2, View.ld_unit_zero (S := S2000x1) zeros2_r2,
    View.ld_unit_zero (S := S256) zeros1_r2]
  obtain ⟨e00, e01, e10, e11, e20, e30, e31, e4, e50, e51, e60, e61⟩ := idx_facts2 t
  have ht : t.val < 25 := t.isLt
  funext j
  obtain ⟨p, q, rfl⟩ : ∃ (p : Fin 2000) (q : Fin 256), j = ix2 p q := ⟨j 0, j 1, eq_ix2 j⟩
  refine (pay2h_apply _ _ _ p q).trans ?_
  have hrow : t.val * 2000 + p.val < 50000 := by omega
  have h0 : iblk2 V c 0 t (ix2 p q)
      = (V c main_v34 : S50000x256.Idx → EReal) (ix2 (⟨t.val * 2000 + p.val, hrow⟩ : Fin 50000) q) := by
    show V c main_v34 (((cfg2.win 0).blk t).view.emb (ix2 p q)) = _
    refine congrArg (V c main_v34) (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * q.val = q.val; omega
  have h1 : iblk2 V c 1 t (ix2 p (0 : Fin 1))
      = (V c main_v12 : S50000x1.Idx → EReal) (ix2 (⟨t.val * 2000 + p.val, hrow⟩ : Fin 50000) (0 : Fin 1)) := by
    show V c main_v12 (((cfg2.win 1).blk t).view.emb (ix2 p (0 : Fin 1))) = _
    refine congrArg (V c main_v12) (funext fun a => Fin.ext ?_)
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : iblk2 V c 2 t (ix1 q) = (V c main_arg5 : S256.Idx → EReal) (ix1 q) := by
    show V c main_arg5 (((cfg2.win 2).blk t).view.emb (ix1 q)) = _
    refine congrArg (V c main_arg5) (funext fun a => Fin.ext ?_)
    match a with
    | ⟨0, _⟩ => show win2_2.index t (0 : Fin 1) * 256 + 1 * q.val = q.val; omega
  have h5 : ((cfg2.win 5).blk t).view.emb (ix2 p q) = (ix2 (⟨t.val * 2000 + p.val, hrow⟩ : Fin 50000) q : S50000x256.Idx) := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  show _ = G2h (V c main_v34) (V c main_v12) (V c main_arg5) (((cfg2.win 5).blk t).view.emb (ix2 p q))
  rw [h5, G2h_apply]
  exact congrArg₂ max (congrArg₂ (· + ·) (congrArg₂ (· * ·) h0 h1) h2) rfl

/-- What point t writes back to the second output is block t of the second function. -/
theorem flushed2z_eq (t : Fin cfg2.N) :
    (dat2 (F := Ideal) V c).flushed 6 t
      = ((cfg2.win 6).blk t).view.read (Elt Ideal)
          (G2z (V c main_v34) (V c main_v12) (V c main_arg5) (V c main_arg6) (V c main_arg7)) := by
  show (cfg2.win 6).cut (grid2.coords t) ((dat2 V c).after 6 t) = _
  rw [after2_6]
  unfold out2_6
  rw [View.canon_unit_zero zeros2_r2]
  simp only [View.ld_unit_zero (S := S2000x256) zeros2_r2, View.ld_unit_zero (S := S2000x1) zeros2_r2,
    View.ld_unit_zero (S := S256) zeros1_r2, View.ld_unit_zero (S := S256x1) zeros2_r2, View.ld_unit_zero (S := S1) zeros1_r2]
  obtain ⟨e00, e01, e10, e11, e20, e30, e31, e4, e50, e51, e60, e61⟩ := idx_facts2 t
  have ht : t.val < 25 := t.isLt
  funext j
  obtain ⟨p, u, rfl⟩ : ∃ (p : Fin 2000) (u : Fin 1), j = ix2 p u := ⟨j 0, j 1, eq_ix2 j⟩
  obtain rfl : u = 0 := Subsingleton.elim _ _
  refine (pay2z_apply _ _ _ _ _ p).trans ?_
  have hrow : t.val * 2000 + p.val < 50000 := by omega
  have h0 : ∀ k : Fin 256, iblk2 V c 0 t (ix2 p k)
      = (V c main_v34 : S50000x256.Idx → EReal) (ix2 (⟨t.val * 2000 + p.val, hrow⟩ : Fin 50000) k) := fun k => by
    show V c main_v34 (((cfg2.win 0).blk t).view.emb (ix2 p k)) = _
    refine congrArg (V c main_v34) (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  have h1 : iblk2 V c 1 t (ix2 p (0 : Fin 1))
      = (V c main_v12 : S50000x1.Idx → EReal) (ix2 (⟨t.val * 2000 + p.val, hrow⟩ : Fin 50000) (0 : Fin 1)) := by
    show V c main_v12 (((cfg2.win 1).blk t).view.emb (ix2 p (0 : Fin 1))) = _
    refine congrArg (V c main_v12) (funext fun a => Fin.ext ?_)
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : ∀ k : Fin 256, iblk2 V c 2 t (ix1 k) = (V c main_arg5 : S256.Idx → EReal) (ix1 k) := fun k => by
    show V c main_arg5 (((cfg2.win 2).blk t).view.emb (ix1 k)) = _
    refine congrArg (V c main_arg5) (funext fun a => Fin.ext ?_)
    match a with
    | ⟨0, _⟩ => show win2_2.index t (0 : Fin 1) * 256 + 1 * k.val = k.val; omega
  have h3 : ∀ k : Fin 256, iblk2 V c 3 t (ix2 k (0 : Fin 1)) = (V c main_arg6 : S256x1.Idx → EReal) (ix2 k (0 : Fin 1)) := fun k => by
    show V c main_arg6 (((cfg2.win 3).blk t).view.emb (ix2 k (0 : Fin 1))) = _
    refine congrArg (V c main_arg6) (funext fun a => Fin.ext ?_)
    match a with
    | ⟨0, _⟩ => show win2_3.index t (0 : Fin 2) * 256 + 1 * k.val = k.val; omega
    | ⟨1, _⟩ => show win2_3.index t (1 : Fin 2) * 1 + 1 * 0 = 0; omega
  have h4 : iblk2 V c 4 t (ix1 (0 : Fin 1)) = (V c main_arg7 : S1.Idx → EReal) (ix1 (0 : Fin 1)) := by
    show V c main_arg7 (((cfg2.win 4).blk t).view.emb (ix1 (0 : Fin 1))) = _
    refine congrArg (V c main_arg7) (funext fun a => Fin.ext ?_)
    match a with
    | ⟨0, _⟩ => show win2_4.index t (0 : Fin 1) * 1 + 1 * 0 = 0; omega
  have h6 : ((cfg2.win 6).blk t).view.emb (ix2 p (0 : Fin 1))
      = (ix2 (⟨t.val * 2000 + p.val, hrow⟩ : Fin 50000) (0 : Fin 1) : S50000x1.Idx) := by
    funext a; apply Fin.ext
    match a with
    | ⟨0, _⟩ => show win2_6.index t (0 : Fin 2) * 2000 + 1 * p.val = t.val * 2000 + p.val; omega
    | ⟨1, _⟩ => show win2_6.index t (1 : Fin 2) * 1 + 1 * 0 = 0; omega
  show _ = G2z (V c main_v34) (V c main_v12) (V c main_arg5) (V c main_arg6) (V c main_arg7)
    (((cfg2.win 6).blk t).view.emb (ix2 p (0 : Fin 1)))
  rw [h6, G2z_apply]
  refine congrArg₂ (· + ·) (Finset.sum_congr rfl fun k _ => congrArg₂ (· * ·) ?_ (h3 k)) h4
  exact congrArg₂ max (congrArg₂ (· + ·) (congrArg₂ (· * ·) (h0 k) h1) (h2 k)) rfl

/-- An index of an output array is in point t's block iff each coordinate is in the block's range on its axis. -/
theorem mem_blk2h (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v35_0).slice (win2_5.rect t)).set ↔ _
  rw [View.set_slice_whole, Rect.mem_set_unit]
  exact Iff.rfl

theorem mem_blk2z (t : Fin cfg2.N) (i : S50000x1.Idx) :
    i ∈ ((cfg2.win 6).blk t).view.set ↔ ∀ a : Fin 2, win2_6.index t a * S2000x1.size a ≤ (i a).val
      ∧ (i a).val < win2_6.index t a * S2000x1.size a + S2000x1.size a := by
  show i ∈ ((View.whole main_v35_1).slice (win2_6.rect t)).set ↔ _
  rw [View.set_slice_whole, Rect.mem_set_unit]
  exact Iff.rfl

/-- Row r of an output array lies in the block of point r / 2000, which is written back. -/
theorem cover2h (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hq : (i 0).val / 2000 < 25 := by omega
  obtain ⟨-, -, -, -, -, -, -, -, e50, e51, -, -⟩ := idx_facts2 ⟨(i 0).val / 2000, hq⟩
  have e50' : win2_5.index ⟨(i 0).val / 2000, hq⟩ (0 : Fin 2) = (i 0).val / 2000 := e50
  refine ⟨⟨(i 0).val / 2000, hq⟩, flush2_5 _, ?_⟩
  rw [mem_blk2h]
  intro a
  match a with
  | ⟨0, _⟩ =>
    show win2_5.index ⟨(i 0).val / 2000, hq⟩ (0 : Fin 2) * 2000 ≤ (i 0).val
      ∧ (i 0).val < win2_5.index ⟨(i 0).val / 2000, hq⟩ (0 : Fin 2) * 2000 + 2000
    omega
  | ⟨1, _⟩ =>
    show win2_5.index ⟨(i 0).val / 2000, hq⟩ (1 : Fin 2) * 256 ≤ (i 1).val
      ∧ (i 1).val < win2_5.index ⟨(i 0).val / 2000, hq⟩ (1 : Fin 2) * 256 + 256
    omega

theorem cover2z (i : S50000x1.Idx) :
    ∃ t : Fin cfg2.N, (cfg2.win 6).flush t = true ∧ i ∈ ((cfg2.win 6).blk t).view.set := by
  have hi0 : (i 0).val < 50000 := (i 0).isLt
  have hi1 : (i 1).val < 1 := (i 1).isLt
  have hq : (i 0).val / 2000 < 25 := by omega
  obtain ⟨-, -, -, -, -, -, -, -, -, -, e60, e61⟩ := idx_facts2 ⟨(i 0).val / 2000, hq⟩
  have e60' : win2_6.index ⟨(i 0).val / 2000, hq⟩ (0 : Fin 2) = (i 0).val / 2000 := e60
  refine ⟨⟨(i 0).val / 2000, hq⟩, flush2_6 _, ?_⟩
  rw [mem_blk2z]
  intro a
  match a with
  | ⟨0, _⟩ =>
    show win2_6.index ⟨(i 0).val / 2000, hq⟩ (0 : Fin 2) * 2000 ≤ (i 0).val
      ∧ (i 0).val < win2_6.index ⟨(i 0).val / 2000, hq⟩ (0 : Fin 2) * 2000 + 2000
    omega
  | ⟨1, _⟩ =>
    show win2_6.index ⟨(i 0).val / 2000, hq⟩ (1 : Fin 2) * 1 ≤ (i 1).val
      ∧ (i 1).val < win2_6.index ⟨(i 0).val / 2000, hq⟩ (1 : Fin 2) * 1 + 1
    omega

/-- The output arrays after the region, as functions of the arrays it read. -/
theorem final2h : (dat2 (F := Ideal) V c).arrAt 5 cfg2.N = G2h (V c main_v34) (V c main_v12) (V c main_arg5) :=
  (dat2 V c).arrAt_eq_of_cover 5 _ (fun t _ => flushed2h_eq V c t) cover2h

theorem final2z : (dat2 (F := Ideal) V c).arrAt 6 cfg2.N
    = G2z (V c main_v34) (V c main_v12) (V c main_arg5) (V c main_arg6) (V c main_arg7) :=
  (dat2 V c).arrAt_eq_of_cover 6 _ (fun t _ => flushed2z_eq V c t) cover2z

/-- The first output array after the region at entry (r, q). -/
theorem region2_out_h (r : Fin 50000) (q : Fin 256) :
    (dat2 (F := Ideal) V c).arrAt 5 cfg2.N (ix2 r q) = entry2h (V c main_v34) (V c main_v12) (V c main_arg5) r q :=
  (congrFun (final2h V c) (ix2 r q)).trans (G2h_apply _ _ _ r q)

/-- The second output array after the region at row r. -/
theorem region2_out_z (r : Fin 50000) :
    (dat2 (F := Ideal) V c).arrAt 6 cfg2.N (ix2 r (0 : Fin 1))
      = entry2z (V c main_v34) (V c main_v12) (V c main_arg5) (V c main_arg6) (V c main_arg7) r :=
  (congrFun (final2z V c) (ix2 r (0 : Fin 1))).trans (G2z_apply _ _ _ _ _ r 0)

end Cert.KernelIdeal.RegionValue

end
-- ==== Proof.KValue.lean ====
/-
  What the idealized kernel program leaves in its two results, entry by entry, as the graph convolution of GcnSpec
  in its first spelling: every dense layer's rows scaled by the inverse square root of the degree before the messages
  are gathered, the aggregated rows scaled again, biased and rectified; the edge score from the per-node score.

  Each region's output array is a function of the arrays the region finds (Regions0-2); each of those is an argument,
  the degree column, or an aggregation of the previous region's output (KHostA, KHostB, KAgg).
-/
import proofs.«140676_j35845797053073_2_alg».proof.Proof.Gen.KernelIdeal.Frame
import proofs.«140676_j35845797053073_2_alg».proof.Proof.GraphData
import proofs.«140676_j35845797053073_2_alg».proof.Proof.GcnSpec
import proofs.«140676_j35845797053073_2_alg».proof.Proof.LibAggRows
import proofs.«140676_j35845797053073_2_alg».proof.Proof.KHostA
import proofs.«140676_j35845797053073_2_alg».proof.Proof.KAgg
import proofs.«140676_j35845797053073_2_alg».proof.Proof.KHostB
import proofs.«140676_j35845797053073_2_alg».proof.Proof.Regions0
import proofs.«140676_j35845797053073_2_alg».proof.Proof.Regions1
import proofs.«140676_j35845797053073_2_alg».proof.Proof.Regions2
import Idealize.ShloMosaic.Lib.StableHlo.Run
import Idealize.ShloMosaic.Lib.Pipeline.Value
import Idealize.ShloMosaic.Lib.ValueIdx

noncomputable section

open scoped BigOperators

namespace Cert.KernelIdeal.KernelValue

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Cert.ReferenceIdeal.Read (val_main_v3 val_main_v6 val_main_v11)

variable (m : (ℓ : Loc nD τ sig) → Buf (Elt Ideal) ℓ) (ρ : Dev nD → PrngReg)

open Cert.Gcn Cert.Graph Cert.KernelIdeal.HostValue Cert.KernelIdeal.RegionValue

/-- The word of the rectifier's zero. -/
abbrev z0 : EReal := Ideal.ofBits .f32 0x00000000#32
/-- The word of one half. -/
abbrev hf : EReal := Ideal.ofBits .f32 0x3F000000#32

/-! ## The arguments as tables -/

abbrev argX (c : Dev nD) : Fin 50000 → Fin 256 → EReal :=
  fun r k => (m ((c : Thread nD τ).loc main_arg0) : S50000x256.Idx → EReal) (ix2 r k)
abbrev argW1 (c : Dev nD) : Fin 256 → Fin 256 → EReal :=
  fun k q => (m ((c : Thread nD τ).loc main_arg2) : S256x256.Idx → EReal) (ix2 k q)
abbrev argB1 (c : Dev nD) : Fin 256 → EReal :=
  fun q => (m ((c : Thread nD τ).loc main_arg3) : S256.Idx → EReal) (ix1 q)
abbrev argW2 (c : Dev nD) : Fin 256 → Fin 256 → EReal :=
  fun k q => (m ((c : Thread nD τ).loc main_arg4) : S256x256.Idx → EReal) (ix2 k q)
abbrev argB2 (c : Dev nD) : Fin 256 → EReal :=
  fun q => (m ((c : Thread nD τ).loc main_arg5) : S256.Idx → EReal) (ix1 q)
abbrev argWe (c : Dev nD) : Fin 256 → EReal :=
  fun k => (m ((c : Thread nD τ).loc main_arg6) : S256x1.Idx → EReal) (ix2 k (0 : Fin 1))
abbrev argBe (c : Dev nD) : EReal :=
  (m ((c : Thread nD τ).loc main_arg7) : S1.Idx → EReal) (ix1 (0 : Fin 1))

/-! ## The stages -/

/-- The first region's output: `x W1`, row `r` scaled by `dinv r`. -/
def R0 (c : Dev nD) : Fin 50000 → Fin 256 → EReal := preK (dinv (X1 m c)) (argX m c) (argW1 m c)
/-- The first layer's activation (never stored: the second region recomputes it from the aggregation). -/
def H1 (c : Dev nD) : Fin 50000 → Fin 256 → EReal :=
  actK z0 (S (X1 m c)) (g (X1 m c)) (dinv (X1 m c)) (R0 m c) (argB1 m c)
/-- The second region's output. -/
def R1 (c : Dev nD) : Fin 50000 → Fin 256 → EReal := preK (dinv (X1 m c)) (H1 m c) (argW2 m c)
/-- The second layer's activation: the first result. -/
def H2 (c : Dev nD) : Fin 50000 → Fin 256 → EReal :=
  actK z0 (S (X1 m c)) (g (X1 m c)) (dinv (X1 m c)) (R1 m c) (argB2 m c)
/-- The per-node score. -/
def Zs (c : Dev nD) : Fin 50000 → EReal := scoreK (H2 m c) (argWe m c) (argBe m c)

/-! ## Region by region -/

theorem entry0_congr (x : S50000x256.Idx → EReal) (w : S256x256.Idx → EReal) (s : S50000x1.Idx → EReal)
    (x' : Fin 50000 → Fin 256 → EReal) (w' : Fin 256 → Fin 256 → EReal) (s' : Fin 50000 → EReal) (r : Fin 50000) (q : Fin 256)
    (hx : ∀ k, x (ix2 r k) = x' r k) (hw : ∀ k, w (ix2 k q) = w' k q) (hs : s (ix2 r (0 : Fin 1)) = s' r) :
    entry0 x w s r q = preK s' x' w' r q := by
  simp only [entry0, preK, dense, hx, hw, hs]

theorem w2_v13_apply (c : Dev nD) (r : Fin 50000) (q : Fin 256) :
    (W2 m ρ c (Proc.devRef .tc main_v13) : S50000x256.Idx → EReal) (ix2 r q) = R0 m c r q :=
  (congrFun (W2_arr m ρ c 3) (ix2 r q)).trans ((region0_out (V1 m ρ) c r q).trans
    (entry0_congr _ _ _ _ _ _ r q (fun k => congrFun (w1_arg_eq m ρ c main_arg0 (by simp)) (ix2 r k))
      (fun k => congrFun (w1_arg_eq m ρ c main_arg2 (by simp)) (ix2 k q)) (w1_v12_apply m ρ c r)))

theorem w3_v23_apply (c : Dev nD) (i : Fin 50000) (q : Fin 256) :
    (W3 m ρ c (Proc.devRef .tc main_v23) : S50000x256.Idx → EReal) (ix2 i q)
      = aggr (S (X1 m c)) (fun e k => R0 m c (g (X1 m c) e) k) i q := by
  rw [w3_v23, aggArr_apply]
  exact congrArg (fun T => aggr (S (X1 m c)) T i q)
    (funext fun e => funext fun k => w2_v13_apply m ρ c (g (X1 m c) e) k)

theorem entry1_congr (x : S50000x256.Idx → EReal) (s : S50000x1.Idx → EReal) (b : S256.Idx → EReal) (w : S256x256.Idx → EReal)
    (x' : Fin 50000 → Fin 256 → EReal) (s' : Fin 50000 → EReal) (b' : Fin 256 → EReal) (w' : Fin 256 → Fin 256 → EReal)
    (r : Fin 50000) (q : Fin 256)
    (hx : ∀ k, x (ix2 r k) = x' r k) (hs : s (ix2 r (0 : Fin 1)) = s' r) (hb : ∀ k, b (ix1 k) = b' k)
    (hw : ∀ k, w (ix2 k q) = w' k q) :
    entry1 x s b w r q = (∑ k : Fin 256, max (x' r k * s' r + b' k) z0 * w' k q) * s' r := by
  simp only [entry1, hx, hs, hb, hw]

theorem w4_v24_apply (c : Dev nD) (r : Fin 50000) (q : Fin 256) :
    (W4 m ρ c (Proc.devRef .tc main_v24) : S50000x256.Idx → EReal) (ix2 r q) = R1 m c r q :=
  (congrFun (W4_arr m ρ c 4) (ix2 r q)).trans ((region1_out (V3 m ρ) c r q).trans
    (entry1_congr _ _ _ _ _ _ _ _ r q (fun k => w3_v23_apply m ρ c r k) (w3_v12_apply m ρ c r)
      (fun k => congrFun (w3_arg3 m ρ c) (ix1 k)) (fun k => congrFun (w3_arg4 m ρ c) (ix2 k q))))

theorem w5_v34_apply (c : Dev nD) (i : Fin 50000) (q : Fin 256) :
    (W5 m ρ c (Proc.devRef .tc main_v34) : S50000x256.Idx → EReal) (ix2 i q)
      = aggr (S (X1 m c)) (fun e k => R1 m c (g (X1 m c) e) k) i q := by
  rw [w5_v34, aggArr_apply]
  exact congrArg (fun T => aggr (S (X1 m c)) T i q)
    (funext fun e => funext fun k => w4_v24_apply m ρ c (g (X1 m c) e) k)

theorem entry2h_congr (x : S50000x256.Idx → EReal) (s : S50000x1.Idx → EReal) (b : S256.Idx → EReal)
    (x' : Fin 50000 → Fin 256 → EReal) (s' : Fin 50000 → EReal) (b' : Fin 256 → EReal) (r : Fin 50000) (q : Fin 256)
    (hx : x (ix2 r q) = x' r q) (hs : s (ix2 r (0 : Fin 1)) = s' r) (hb : b (ix1 q) = b' q) :
    entry2h x s b r q = max (x' r q * s' r + b' q) z0 := by
  simp only [entry2h, hx, hs, hb]

/-- The first result at an entry. -/
theorem w7_v35_0_apply (c : Dev nD) (r : Fin 50000) (q : Fin 256) :
    (W7 m ρ c (Proc.devRef .tc main_v35_0) : S50000x256.Idx → EReal) (ix2 r q) = H2 m c r q :=
  (congrFun (w7_v35_0 m ρ c) (ix2 r q)).trans ((congrFun (W6_arr m ρ c 5) (ix2 r q)).trans
    ((region2_out_h (V5 m ρ) c r q).trans
      (entry2h_congr _ _ _ _ _ _ r q (w5_v34_apply m ρ c r q) (w5_v12_apply m ρ c r)
        (congrFun (w5_arg5 m ρ c) (ix1 q)))))

theorem entry2z_congr (x : S50000x256.Idx → EReal) (s : S50000x1.Idx → EReal) (b : S256.Idx → EReal)
    (w : S256x1.Idx → EReal) (be : S1.Idx → EReal)
    (x' : Fin 50000 → Fin 256 → EReal) (s' : Fin 50000 → EReal) (b' : Fin 256 → EReal) (w' : Fin 256 → EReal) (be' : EReal)
    (r : Fin 50000)
    (hx : ∀ k, x (ix2 r k) = x' r k) (hs : s (ix2 r (0 : Fin 1)) = s' r) (hb : ∀ k, b (ix1 k) = b' k)
    (hw : ∀ k, w (ix2 k (0 : Fin 1)) = w' k) (hbe : be (ix1 (0 : Fin 1)) = be') :
    entry2z x s b w be r = (∑ k : Fin 256, max (x' r k * s' r + b' k) z0 * w' k) + be' := by
  simp only [entry2z, hx, hs, hb, hw, hbe]

/-- The per-node score the third region leaves. -/
theorem w6_v35_1_apply (c : Dev nD) (r : Fin 50000) :
    (W6 m ρ c (Proc.devRef .tc main_v35_1) : S50000x1.Idx → EReal) (ix2 r (0 : Fin 1)) = Zs m c r :=
  (congrFun (W6_arr m ρ c 6) (ix2 r (0 : Fin 1))).trans ((region2_out_z (V5 m ρ) c r).trans
    (entry2z_congr _ _ _ _ _ _ _ _ _ _ r (fun k => w5_v34_apply m ρ c r k) (w5_v12_apply m ρ c r)
      (fun k => congrFun (w5_arg5 m ρ c) (ix1 k)) (fun k => congrFun (w5_arg6 m ρ c) (ix2 k (0 : Fin 1)))
      (congrFun (w5_arg7 m ρ c) (ix1 (0 : Fin 1)))))

/-- The second result at an entry. -/
theorem w7_v56_apply (c : Dev nD) (e : Fin 800000) :
    (W7 m ρ c (Proc.devRef .tc main_v56) : S800000x1.Idx → EReal) (ix2 e (0 : Fin 1))
      = edgeK (Zs m c) (ea (X1 m c)) (eb (X1 m c)) hf e := by
  rw [w7_v56, tailArr_apply]
  exact congrArg (fun Z => edgeK Z (ea (X1 m c)) (eb (X1 m c)) hf e) (funext fun r => w6_v35_1_apply m ρ c r)

end Cert.KernelIdeal.KernelValue

end
-- ==== Proof.LibVecGather.lean ====
/-
  A gather of single entries of a vector. The operand is a vector of N entries, the start indices are a column of E
  words, and the result is a vector of E entries: entry e of the result is the operand's entry at the e-th word, read
  as a signed integer and clamped into [0, N - 1] (a negative word reads entry 0, a word at or above N reads entry
  N - 1). This is what x[idx] lowers to for a vector x and a vector of indices laid out as a column.
  Stated over literal-free extents N and E and any word width.
-/
import Idealize.ShloMosaic.PureOps.Ideal
import Idealize.ShloMosaic.Lib.ValueIdx
import proofs.«140676_j35845797053073_2_alg».proof.Proof.LibAggRows

noncomputable section

namespace Cert.LibVecGather

open Idealize.ShloMosaic Idealize.ShloMosaic.ValueIdx Cert.LibAggRows

variable {α : Type}

/-- The vector gather's dimension numbers for an operand of N entries, start indices laid out as E rows of one word
    and a result of E entries: no offset axis, the operand's one axis collapsed and named by the start index, the index
    vector along the start indices' axis 1, slices of one entry. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather read at entry e: the operand at the e-th start index, read signed and clamped into
    [0, N - 1] — the same row number a gather of whole rows of a table reads at row e. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (srcRow N hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVecGather

end
-- ==== Proof.RefSide.lean ====
/-
  THE REFERENCE PROGRAM'S TWO RESULTS READ AT AN ENTRY.

  The hidden layers of the reference program and its edge scores, read at one entry, are the abstract functions
  `Cert.Gcn.actR` and `Cert.Gcn.edgeR` over the graph the edge list describes (`Cert.Graph`): a dense layer's rows
  are gathered per message, each message is scaled by `dinv (g e) * dinv (gd e)`, the messages are summed per
  destination from zero, the bias is added and the result is bounded below by zero; an edge's score is the mean of
  its two endpoint rows against the weight column, plus the bias.
-/
import proofs.«140676_j35845797053073_2_alg».proof.Proof.Gen.ReferenceIdeal.Read
import proofs.«140676_j35845797053073_2_alg».proof.Proof.GcnSpec
import proofs.«140676_j35845797053073_2_alg».proof.Proof.GraphData
import proofs.«140676_j35845797053073_2_alg».proof.Proof.LibAggRows
import proofs.«140676_j35845797053073_2_alg».proof.Proof.LibVecGather

noncomputable section

open scoped BigOperators

namespace Cert.RefSide

open Cert.ReferenceIdeal Cert.ReferenceIdeal.Read Cert.Graph Cert.LibAggRows Cert.LibVecGather
open Idealize.ShloMosaic Idealize.ShloMosaic.ValueIdx

/-! ## The index columns that the program builds more than once -/

/-- The wrapped source column built for the first layer's row gather is the one built for the `dinv` gather. -/
theorem v33_eq (x1 : Words) : val_main_v33 (F := Ideal) x1 = val_main_v17 (F := Ideal) x1 := rfl
/-- The wrapped source column built for the second layer's row gather is the same again. -/
theorem v51_eq (x1 : Words) : val_main_v51 (F := Ideal) x1 = val_main_v17 (F := Ideal) x1 := rfl
/-- The destination column of the first layer's scatter-add is the one the degree count reads. -/
theorem v39_eq (x1 : Words) : val_main_v39 (F := Ideal) x1 = val_main_v9 (F := Ideal) x1 := rfl
/-- The destination column of the second layer's scatter-add is the same again. -/
theorem v57_eq (x1 : Words) : val_main_v57 (F := Ideal) x1 = val_main_v9 (F := Ideal) x1 := rfl

/-! ## The gathers and the scatter-add at the program's literal extents -/

/-- A row gather of a 50000-row table through a column of 850000 words, read at an entry. -/
theorem gather850_apply (x : FVec Ideal S50000x256 .f32) (idx : IVec S850000x1 32) (e : Fin 850000) (c : Fin 256) :
    Host.gather gather_S50000x256_S850000x1_S850000x256_1_0_n_n_0_1_1256 x idx (ix2 e c)
      = x (ix2 (srcRow 50000 N_pos idx e) c) :=
  rowGather_apply N_pos Gen.gather_S50000x256_S850000x1_S850000x256_1_0_n_n_0_1_1256_wf x idx e c

/-- A row gather of a 50000-row table through a column of 800000 words, read at an entry. -/
theorem gather800_apply (x : FVec Ideal S50000x256 .f32) (idx : IVec S800000x1 32) (e : Fin 800000) (c : Fin 256) :
    Host.gather gather_S50000x256_S800000x1_S800000x256_1_0_n_n_0_1_1256 x idx (ix2 e c)
      = x (ix2 (srcRow 50000 N_pos idx e) c) :=
  rowGather_apply N_pos Gen.gather_S50000x256_S800000x1_S800000x256_1_0_n_n_0_1_1256_wf x idx e c

/-- A gather of single entries of a 50000-vector through a column of 850000 words, read at an entry. -/
theorem vgather850_apply (x : FVec Ideal S50000 .f32) (idx : IVec S850000x1 32) (e : Fin 850000) :
    Host.gather gather_S50000_S850000x1_S850000_n_0_n_n_0_1_1 x idx (ix1 e)
      = x (ix1 (srcRow 50000 N_pos idx e)) :=
  vecGather_apply N_pos Gen.gather_S50000_S850000x1_S850000_n_0_n_n_0_1_1_wf x idx e

/-- A row scatter-add into a 50000-row table through a column of 850000 words, read at an entry. -/
theorem scatter850_apply (x : FVec Ideal S50000x256 .f32) (idx : IVec S850000x1 32) (upd : FVec Ideal S850000x256 .f32)
    (i : Fin 50000) (c : Fin 256) :
    Host.scatterAdd (F := Ideal) scatter_S50000x256_S850000x1_S850000x256_1_0_0_1 x idx upd (ix2 i c)
      = x (ix2 i c) + ∑ e ∈ Finset.univ.filter (fun e : Fin 850000 => dstRow? 50000 idx e = some i), upd (ix2 e c) :=
  rowScatterAdd_apply Gen.scatter_S50000x256_S850000x1_S850000x256_1_0_0_1_wf x idx upd i c

/-! ## Index equations -/

theorem lidx27 (r : Fin 50000) (q k : Fin 256) : lidx_main_v27 (ix2 r q) k = ix2 r k := by
  funext a; match a with | ⟨0, _⟩ => rfl | ⟨1, _⟩ => rfl
theorem ridx27 (r : Fin 50000) (q k : Fin 256) : ridx_main_v27 (ix2 r q) k = ix2 k q := by
  funext a; match a with | ⟨0, _⟩ => rfl | ⟨1, _⟩ => rfl
theorem lidx45 (r : Fin 50000) (q k : Fin 256) : lidx_main_v45 (ix2 r q) k = ix2 r k := by
  funext a; match a with | ⟨0, _⟩ => rfl | ⟨1, _⟩ => rfl
theorem ridx45 (r : Fin 50000) (q k : Fin 256) : ridx_main_v45 (ix2 r q) k = ix2 k q := by
  funext a; match a with | ⟨0, _⟩ => rfl | ⟨1, _⟩ => rfl
theorem lidx84 (e : Fin 800000) (k : Fin 256) : lidx_main_v84 (ix2 e (0 : Fin 1)) k = ix2 e k := by
  funext a; match a with | ⟨0, _⟩ => rfl | ⟨1, _⟩ => rfl
theorem ridx84 (e : Fin 800000) (k : Fin 256) : ridx_main_v84 (ix2 e (0 : Fin 1)) k = ix2 k (0 : Fin 1) := by
  funext a; match a with | ⟨0, _⟩ => rfl | ⟨1, _⟩ => rfl
/-- The bias row laid over the rows is read at the entry's column. -/
theorem idx_bias1 (i : Fin 50000) (q : Fin 256) : idx_main_v41 (idx_main_v42 (ix2 i q)) = ix1 q := by
  funext a; match a with | ⟨0, _⟩ => rfl
theorem idx_bias2 (i : Fin 50000) (q : Fin 256) : idx_main_v59 (idx_main_v60 (ix2 i q)) = ix1 q := by
  funext a; match a with | ⟨0, _⟩ => rfl
/-- The message coefficients laid over the columns are read at the entry's row. -/
theorem idx_coef1 (e : Fin 850000) (q : Fin 256) : idx_main_v35 (idx_main_v36 (ix2 e q)) = ix1 e := by
  funext a; match a with | ⟨0, _⟩ => rfl
theorem idx_coef2 (e : Fin 850000) (q : Fin 256) : idx_main_v53 (idx_main_v54 (ix2 e q)) = ix1 e := by
  funext a; match a with | ⟨0, _⟩ => rfl
theorem idx_ebias (e : Fin 800000) : idx_main_v85 (idx_main_v86 (ix2 e (0 : Fin 1))) = ix1 (0 : Fin 1) := by
  funext a; match a with | ⟨0, _⟩ => rfl

/-! ## The pieces of a layer -/

/-- The coefficient of message `e`: the two gathered entries of `dinv` times each other. -/
theorem coef_apply (x1 : Words) (e : Fin 850000) :
    val_main_v26 (F := Ideal) x1 (ix1 e) = dinv x1 (g x1 e) * dinv x1 (gd x1 e) := by
  rw [val_main_v26_apply]
  unfold val_main_v18 val_main_v25
  rw [vgather850_apply, vgather850_apply, Ideal.mulf_def]
  unfold dinv g gd srcIdx dstIdxW
  rfl

/-- The first dense layer at an entry. -/
theorem dense1_apply (x0 : (⟨S50000x256, .f32⟩ : BufTy).Contents (Elt Ideal)) (x2 : (⟨S256x256, .f32⟩ : BufTy).Contents (Elt Ideal)) (r : Fin 50000) (q : Fin 256) :
    val_main_v27 (F := Ideal) x0 x2 (ix2 r q)
      = Cert.Gcn.dense (fun r k => x0 (ix2 r k)) (fun k c => x2 (ix2 k c)) r q := by
  rw [val_main_v27_apply]
  unfold Cert.Gcn.dense
  refine Finset.sum_congr rfl fun k _ => ?_
  rw [lidx27, ridx27]

/-- The first layer's message `e` at column `q`: the gathered row of the dense layer times the coefficient. -/
theorem msg1_apply (x0 : (⟨S50000x256, .f32⟩ : BufTy).Contents (Elt Ideal)) (x1 : Words) (x2 : (⟨S256x256, .f32⟩ : BufTy).Contents (Elt Ideal))
    (e : Fin 850000) (q : Fin 256) :
    val_main_v37 (F := Ideal) x0 x1 x2 (ix2 e q)
      = Cert.Gcn.dense (fun r k => x0 (ix2 r k)) (fun k c => x2 (ix2 k c)) (g x1 e) q
          * (dinv x1 (g x1 e) * dinv x1 (gd x1 e)) := by
  rw [val_main_v37_apply, val_main_v36_apply, val_main_v35_apply, idx_coef1, coef_apply, Ideal.mulf_def]
  unfold val_main_v34
  rw [gather850_apply, v33_eq, dense1_apply]
  rfl

/-- THE FIRST HIDDEN LAYER AT AN ENTRY: the messages' rows of the dense layer, each scaled by its coefficient, summed
    from zero over the messages landing on node `i`, plus the bias, bounded below by zero. -/
theorem ref_h1 (x0 : (⟨S50000x256, .f32⟩ : BufTy).Contents (Elt Ideal)) (x1 : Words) (x2 : (⟨S256x256, .f32⟩ : BufTy).Contents (Elt Ideal))
    (x3 : (⟨S256, .f32⟩ : BufTy).Contents (Elt Ideal)) (i : Fin 50000) (q : Fin 256) :
    val_main_v44 (F := Ideal) x0 x1 x2 x3 (ix2 i q)
      = Cert.Gcn.actR (Ideal.ofBits .f32 0x00000000#32) (S x1) (g x1) (gd x1) (dinv x1)
          (fun r k => x0 (ix2 r k)) (fun k c => x2 (ix2 k c)) (fun c => x3 (ix1 c)) i q := by
  rw [val_main_v44_apply, val_main_v43_apply, val_main_call0_v0_apply, val_main_call0_cst_apply,
    val_main_v42_apply, val_main_v41_apply, idx_bias1, Ideal.maximumf_def, Ideal.addf_def, Ideal.ofBits_def]
  unfold val_main_v40
  rw [scatter850_apply, val_main_v38_apply, val_main_cst_6_apply, Ideal.ofBits_def, Ideal.ofBits_zero_f32, v39_eq]
  unfold Cert.Gcn.actR Cert.Gcn.aggr S dstIdx
  simp only [msg1_apply]

/-- The second dense layer at an entry: the first hidden layer's row against the second weight's column. -/
theorem dense2_apply (x0 : (⟨S50000x256, .f32⟩ : BufTy).Contents (Elt Ideal)) (x1 : Words) (x2 : (⟨S256x256, .f32⟩ : BufTy).Contents (Elt Ideal))
    (x3 : (⟨S256, .f32⟩ : BufTy).Contents (Elt Ideal)) (x4 : (⟨S256x256, .f32⟩ : BufTy).Contents (Elt Ideal)) (r : Fin 50000) (q : Fin 256) :
    val_main_v45 (F := Ideal) x0 x1 x2 x3 x4 (ix2 r q)
      = Cert.Gcn.dense (fun r k => val_main_v44 (F := Ideal) x0 x1 x2 x3 (ix2 r k)) (fun k c => x4 (ix2 k c)) r q := by
  rw [val_main_v45_apply]
  unfold Cert.Gcn.dense
  refine Finset.sum_congr rfl fun k _ => ?_
  rw [lidx45, ridx45]

/-- The second layer's message `e` at column `q`. -/
theorem msg2_apply (x0 : (⟨S50000x256, .f32⟩ : BufTy).Contents (Elt Ideal)) (x1 : Words) (x2 : (⟨S256x256, .f32⟩ : BufTy).Contents (Elt Ideal))
    (x3 : (⟨S256, .f32⟩ : BufTy).Contents (Elt Ideal)) (x4 : (⟨S256x256, .f32⟩ : BufTy).Contents (Elt Ideal)) (e : Fin 850000) (q : Fin 256) :
    val_main_v55 (F := Ideal) x0 x1 x2 x3 x4 (ix2 e q)
      = Cert.Gcn.dense (fun r k => val_main_v44 (F := Ideal) x0 x1 x2 x3 (ix2 r k)) (fun k c => x4 (ix2 k c)) (g x1 e) q
          * (dinv x1 (g x1 e) * dinv x1 (gd x1 e)) := by
  rw [val_main_v55_apply, val_main_v54_apply, val_main_v53_apply, idx_coef2, coef_apply, Ideal.mulf_def]
  unfold val_main_v52
  rw [gather850_apply, v51_eq, dense2_apply]
  rfl

/-- THE SECOND HIDDEN LAYER AT AN ENTRY: the same over the first hidden layer, the second weight and the second bias. -/
theorem ref_h2 (x0 : (⟨S50000x256, .f32⟩ : BufTy).Contents (Elt Ideal)) (x1 : Words) (x2 : (⟨S256x256, .f32⟩ : BufTy).Contents (Elt Ideal))
    (x3 : (⟨S256, .f32⟩ : BufTy).Contents (Elt Ideal)) (x4 : (⟨S256x256, .f32⟩ : BufTy).Contents (Elt Ideal)) (x5 : (⟨S256, .f32⟩ : BufTy).Contents (Elt Ideal)) (i : Fin 50000) (q : Fin 256) :
    val_main_v62 (F := Ideal) x0 x1 x2 x3 x4 x5 (ix2 i q)
      = Cert.Gcn.actR (Ideal.ofBits .f32 0x00000000#32) (S x1) (g x1) (gd x1) (dinv x1)
          (fun r k => val_main_v44 (F := Ideal) x0 x1 x2 x3 (ix2 r k)) (fun k c => x4 (ix2 k c))
          (fun c => x5 (ix1 c)) i q := by
  rw [val_main_v62_apply, val_main_v61_apply, val_main_call1_v0_apply, val_main_call1_cst_apply,
    val_main_v60_apply, val_main_v59_apply, idx_bias2, Ideal.maximumf_def, Ideal.addf_def, Ideal.ofBits_def]
  unfold val_main_v58
  rw [scatter850_apply, val_main_v56_apply, val_main_cst_9_apply, Ideal.ofBits_def, Ideal.ofBits_zero_f32, v57_eq]
  unfold Cert.Gcn.actR Cert.Gcn.aggr S dstIdx
  simp only [msg2_apply]

/-- THE EDGE SCORE AT AN ENTRY: the mean of the two endpoint rows of the second hidden layer against the weight
    column, plus the bias. -/
theorem ref_y (x0 : (⟨S50000x256, .f32⟩ : BufTy).Contents (Elt Ideal)) (x1 : Words) (x2 : (⟨S256x256, .f32⟩ : BufTy).Contents (Elt Ideal))
    (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x1, .f32⟩ : BufTy).Contents (Elt Ideal)) (x7 : (⟨S1, .f32⟩ : BufTy).Contents (Elt Ideal))
    (e : Fin 800000) :
    val_main_v87 (F := Ideal) x0 x1 x2 x3 x4 x5 x6 x7 (ix2 e (0 : Fin 1))
      = Cert.Gcn.edgeR (fun r k => val_main_v62 (F := Ideal) x0 x1 x2 x3 x4 x5 (ix2 r k)) (ea x1) (eb x1)
          (Ideal.ofBits .f32 0x3F000000#32) (fun k => x6 (ix2 k (0 : Fin 1))) (x7 (ix1 (0 : Fin 1))) e := by
  rw [val_main_v87_apply, val_main_v86_apply, val_main_v85_apply, idx_ebias, val_main_v84_apply, Ideal.addf_def]
  unfold Cert.Gcn.edgeR
  refine congrArg (· + x7 (ix1 (0 : Fin 1))) (Finset.sum_congr rfl fun k _ => ?_)
  rw [lidx84, ridx84, val_main_v83_apply, val_main_v82_apply, val_main_cst_14_apply, val_main_v81_apply,
    Ideal.mulf_def, Ideal.addf_def, Ideal.ofBits_def]
  unfold val_main_v71 val_main_v80
  rw [gather800_apply, gather800_apply]
  unfold ea eb endA endB
  rfl

end Cert.RefSide

end
-- ==== Proof.Bridge.lean ====
/-
  The idealized kernel program and the idealized reference end with equal results.

  The kernel program's results are the graph convolution in its first spelling (KValue); the reference's are the
  second spelling (RefSide).  On finite inputs every entry in sight is a real number — the arguments by the
  precondition, the inverse square roots of the degrees because every node has its self loop, every activation as a
  maximum of sums of products of reals — so the two spellings agree (GcnLaw): layer by layer for the node embedding,
  and by linearity of the score for the edges.
-/
import proofs.«140676_j35845797053073_2_alg».proof.Proof.Gen.KernelIdeal.Frame
import proofs.«140676_j35845797053073_2_alg».proof.Proof.GraphData
import proofs.«140676_j35845797053073_2_alg».proof.Proof.GraphFacts
import proofs.«140676_j35845797053073_2_alg».proof.Proof.GcnSpec
import proofs.«140676_j35845797053073_2_alg».proof.Proof.GcnLaw
import proofs.«140676_j35845797053073_2_alg».proof.Proof.LibRealSums
import proofs.«140676_j35845797053073_2_alg».proof.Proof.PreReal
import proofs.«140676_j35845797053073_2_alg».proof.Proof.KHostA
import proofs.«140676_j35845797053073_2_alg».proof.Proof.KAgg
import proofs.«140676_j35845797053073_2_alg».proof.Proof.KHostB
import proofs.«140676_j35845797053073_2_alg».proof.Proof.KValue
import proofs.«140676_j35845797053073_2_alg».proof.Proof.RefSide
import Idealize.ShloMosaic.Lib.StableHlo.Run
import Idealize.ShloMosaic.Lib.Pipeline.Value
import Idealize.ShloMosaic.Lib.ValueIdx

noncomputable section

open scoped BigOperators

namespace Cert.Bridge

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Cert.ReferenceIdeal.Read (val_main_v3 val_main_v6 val_main_v11)

variable (m : (ℓ : Loc nD τ sig) → Buf (Elt Ideal) ℓ) (ρ : Dev nD → PrngReg)

open Cert.Gcn Cert.Graph Cert.LibRealSums Cert.KernelIdeal.HostValue Cert.KernelIdeal.KernelValue
open Cert.ReferenceIdeal.Read (val_main_v44 val_main_v62 val_main_v87)

variable (hpre : Cert.Pre_KernelIdeal (hPre_finite_inputs := Cert.Pre_finite_inputs.Gen.facts) m)

/-- The reference's first activation as a table, over the kernel program's arguments. -/
abbrev H1R (c : Dev nD) : Fin 50000 → Fin 256 → EReal := fun r k =>
  val_main_v44 (F := Ideal) (m ((c : Thread nD τ).loc main_arg0)) (X1 m c) (m ((c : Thread nD τ).loc main_arg2))
    (m ((c : Thread nD τ).loc main_arg3)) (ix2 r k)

/-- The reference's second activation as a table, over the kernel program's arguments. -/
abbrev H2R (c : Dev nD) : Fin 50000 → Fin 256 → EReal := fun r k =>
  val_main_v62 (F := Ideal) (m ((c : Thread nD τ).loc main_arg0)) (X1 m c) (m ((c : Thread nD τ).loc main_arg2))
    (m ((c : Thread nD τ).loc main_arg3)) (m ((c : Thread nD τ).loc main_arg4)) (m ((c : Thread nD τ).loc main_arg5)) (ix2 r k)

theorem z0_real : IsReal z0 := isReal_ofBits_zero

include hpre in
theorem h1_eq (c : Dev nD) : H1 m c = H1R m c := by
  obtain ⟨h0, h2, h3, h4, h5, h6, h7⟩ := Cert.PreReal.kernel_args_real m hpre c
  funext r k
  refine (act_eq z0 (S (X1 m c)) (g (X1 m c)) (gd (X1 m c)) (dinv (X1 m c)) (argX m c) (argW1 m c) (argB1 m c)
    (fun r k => h0 (ix2 r k)) (fun k q => h2 (ix2 k q)) (dinv_real (X1 m c)) (gd_of_mem (X1 m c)) r k).trans ?_
  exact (Cert.RefSide.ref_h1 _ (X1 m c) _ _ r k).symm

include hpre in
theorem h1R_real (c : Dev nD) (r : Fin 50000) (k : Fin 256) : IsReal (H1R m c r k) := by
  obtain ⟨h0, h2, h3, h4, h5, h6, h7⟩ := Cert.PreReal.kernel_args_real m hpre c
  show IsReal (val_main_v44 (F := Ideal) _ (X1 m c) _ _ (ix2 r k))
  rw [Cert.RefSide.ref_h1]
  exact actR_real _ _ _ _ _ _ _ _ z0_real (fun r k => h0 (ix2 r k)) (fun k q => h2 (ix2 k q)) (dinv_real (X1 m c))
    (fun q => h3 (ix1 q)) r k

include hpre in
theorem h2_eq (c : Dev nD) : H2 m c = H2R m c := by
  obtain ⟨h0, h2, h3, h4, h5, h6, h7⟩ := Cert.PreReal.kernel_args_real m hpre c
  funext r k
  show actK z0 (S (X1 m c)) (g (X1 m c)) (dinv (X1 m c)) (preK (dinv (X1 m c)) (H1 m c) (argW2 m c)) (argB2 m c) r k = _
  rw [h1_eq m hpre c]
  refine (act_eq z0 (S (X1 m c)) (g (X1 m c)) (gd (X1 m c)) (dinv (X1 m c)) (H1R m c) (argW2 m c) (argB2 m c)
    (h1R_real m hpre c) (fun k q => h4 (ix2 k q)) (dinv_real (X1 m c)) (gd_of_mem (X1 m c)) r k).trans ?_
  exact (Cert.RefSide.ref_h2 _ (X1 m c) _ _ _ _ r k).symm

include hpre in
theorem h2R_real (c : Dev nD) (r : Fin 50000) (k : Fin 256) : IsReal (H2R m c r k) := by
  obtain ⟨h0, h2, h3, h4, h5, h6, h7⟩ := Cert.PreReal.kernel_args_real m hpre c
  show IsReal (val_main_v62 (F := Ideal) _ (X1 m c) _ _ _ _ (ix2 r k))
  rw [Cert.RefSide.ref_h2]
  exact actR_real _ _ _ _ _ _ _ _ z0_real (h1R_real m hpre c) (fun k q => h4 (ix2 k q)) (dinv_real (X1 m c))
    (fun q => h5 (ix1 q)) r k

include hpre in
/-- The node embeddings agree. -/
theorem out_h (c : Dev nD) : (W7 m ρ c (Proc.devRef .tc main_v35_0) : S50000x256.Idx → EReal)
    = val_main_v62 (F := Ideal) (m ((c : Thread nD τ).loc main_arg0)) (X1 m c) (m ((c : Thread nD τ).loc main_arg2))
        (m ((c : Thread nD τ).loc main_arg3)) (m ((c : Thread nD τ).loc main_arg4)) (m ((c : Thread nD τ).loc main_arg5)) := by
  funext j
  obtain ⟨r, q, rfl⟩ : ∃ (r : Fin 50000) (q : Fin 256), j = ix2 r q := ⟨j 0, j 1, eq_ix2 j⟩
  exact (w7_v35_0_apply m ρ c r q).trans (congrFun (congrFun (h2_eq m hpre c) r) q)

include hpre in
/-- The edge scores agree. -/
theorem out_y (c : Dev nD) : (W7 m ρ c (Proc.devRef .tc main_v56) : S800000x1.Idx → EReal)
    = val_main_v87 (F := Ideal) (m ((c : Thread nD τ).loc main_arg0)) (X1 m c) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  obtain ⟨h0, h2, h3, h4, h5, h6, h7⟩ := Cert.PreReal.kernel_args_real m hpre c
  funext j
  obtain ⟨e, u, rfl⟩ : ∃ (e : Fin 800000) (u : Fin 1), j = ix2 e u := ⟨j 0, j 1, eq_ix2 j⟩
  obtain rfl : u = 0 := Subsingleton.elim _ _
  refine (w7_v56_apply m ρ c e).trans ?_
  show edgeK (scoreK (H2 m c) (argWe m c) (argBe m c)) (ea (X1 m c)) (eb (X1 m c)) hf e = _
  rw [h2_eq m hpre c]
  refine (edge_eq (H2R m c) (ea (X1 m c)) (eb (X1 m c)) hf (argWe m c) (argBe m c) (h2R_real m hpre c)
    (fun k => h6 (ix2 k (0 : Fin 1))) (h7 (ix1 (0 : Fin 1))) ofBits_half e).trans ?_
  exact (Cert.RefSide.ref_y _ (X1 m c) _ _ _ _ _ _ e).symm

end Cert.Bridge

end
-- ==== Proof.lean ====
/-
  The certificate of a two-layer graph convolution kernel against its reference.

  THE PROGRAMS.  Both take node features `x` [50000, 256], an edge list [2, 800000] of integer words, two weight
  matrices with their biases, and an edge-score weight column with its bias.  Both append one self loop per node to
  the edges, count the messages landing on each node (`deg`), and take `dinv = deg^(-1/2)`.  A message reads the
  node its source word names (wrapped when negative, clamped into the table) and is added to the node its
  destination word names (dropped when the word is outside the table).
  The reference scales every gathered row of `h W` by `dinv[src] * dinv[dst]`, sums per destination, adds the bias
  and rectifies, twice; then scores each listed edge by the mean of its endpoints' rows against the score column.
  The kernel program scales the rows of `h W` by `dinv` inside one kernel region, gathers and sums them on the host,
  scales the sums by `dinv` again inside the next region (which also adds the bias, rectifies, and multiplies by the
  next weights), and scores a node once, `z = h We + be`, so that an edge's score is `(z[a] + z[b]) / 2`.

  THE CLAIMS.  The three frames are the generated ones (the reference's is its generated run with the results
  dropped); nothing was rewritten by the idealization, so it preserves trivially.  For the algebraic claim the kernel
  program's run is read with every buffer named at the end (KRun), its two results are the first spelling of the
  convolution (KValue, over Regions0-2, KHostA, KHostB, KAgg), the reference's the second (RefSide), and on finite
  inputs the two agree (Bridge, GcnLaw, GraphFacts, PreReal): the distributive law that moves `dinv` across the sum
  over the messages holds because every term is a real number — the degrees are at least one thanks to the self
  loops, so `dinv` is real.
-/
import proofs.«140676_j35845797053073_2_alg».proof.Defs
import proofs.«140676_j35845797053073_2_alg».proof.Proof.Gen.Kernel
import proofs.«140676_j35845797053073_2_alg».proof.Proof.Gen.Kernel.Skeleton
import proofs.«140676_j35845797053073_2_alg».proof.Proof.Gen.Kernel.Launch
import proofs.«140676_j35845797053073_2_alg».proof.Proof.Gen.Kernel.Points
import proofs.«140676_j35845797053073_2_alg».proof.Proof.Gen.Kernel.Frame
import proofs.«140676_j35845797053073_2_alg».proof.Proof.Gen.KernelIdeal
import proofs.«140676_j35845797053073_2_alg».proof.Proof.Gen.KernelIdeal.Skeleton
import proofs.«140676_j35845797053073_2_alg».proof.Proof.Gen.KernelIdeal.Launch
import proofs.«140676_j35845797053073_2_alg».proof.Proof.Gen.KernelIdeal.Points
import proofs.«140676_j35845797053073_2_alg».proof.Proof.Gen.KernelIdeal.Frame
import proofs.«140676_j35845797053073_2_alg».proof.Proof.Gen.ReferenceIdeal
import proofs.«140676_j35845797053073_2_alg».proof.Proof.Gen.ReferenceIdeal.Run
import proofs.«140676_j35845797053073_2_alg».proof.Proof.Gen.ReferenceIdeal.Read
import proofs.«140676_j35845797053073_2_alg».proof.Proof.Gen.Pre_finite_inputs
import proofs.«140676_j35845797053073_2_alg».proof.Proof.KRun
import proofs.«140676_j35845797053073_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the idealized reference: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on the arguments the two idealized programs end with equal results: the kernel program's
    last boundary contents at its two result buffers, which are the reference's two results (Bridge). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v35_0),
    fun c => Cert.KernelIdeal.Gen.W7 m ρ c (Proc.devRef .tc Cert.KernelIdeal.main_v56), ?_, ?_⟩
  · exact (θ_run Cert.KernelIdeal.defs _ _).mono (fun r h c =>
      ⟨h c _ (Cert.KernelIdeal.Gen.mem_uc Cert.KernelIdeal.main_v35_0 (by decide)),
       h c _ (Cert.KernelIdeal.Gen.mem_uc Cert.KernelIdeal.main_v56 (by decide)),
       (h c _ (Cert.KernelIdeal.Gen.mem_uc Cert.KernelIdeal.main_arg0 (by decide))).trans (Cert.KernelIdeal.Gen.W7_main_arg0 m ρ c),
       (h c _ (Cert.KernelIdeal.Gen.mem_uc Cert.KernelIdeal.main_arg1 (by decide))).trans (Cert.KernelIdeal.Gen.W7_main_arg1 m ρ c),
       (h c _ (Cert.KernelIdeal.Gen.mem_uc Cert.KernelIdeal.main_arg2 (by decide))).trans (Cert.KernelIdeal.Gen.W7_main_arg2 m ρ c),
       (h c _ (Cert.KernelIdeal.Gen.mem_uc Cert.KernelIdeal.main_arg3 (by decide))).trans (Cert.KernelIdeal.Gen.W7_main_arg3 m ρ c),
       (h c _ (Cert.KernelIdeal.Gen.mem_uc Cert.KernelIdeal.main_arg4 (by decide))).trans (Cert.KernelIdeal.Gen.W7_main_arg4 m ρ c),
       (h c _ (Cert.KernelIdeal.Gen.mem_uc Cert.KernelIdeal.main_arg5 (by decide))).trans (Cert.KernelIdeal.Gen.W7_main_arg5 m ρ c),
       (h c _ (Cert.KernelIdeal.Gen.mem_uc Cert.KernelIdeal.main_arg6 (by decide))).trans (Cert.KernelIdeal.Gen.W7_main_arg6 m ρ c),
       (h c _ (Cert.KernelIdeal.Gen.mem_uc Cert.KernelIdeal.main_arg7 (by decide))).trans (Cert.KernelIdeal.Gen.W7_main_arg7 m ρ c)⟩)
      (Cert.KernelIdeal.RunValue.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v62_eq, (hagree c).1, (hagree c).2.1, (hagree c).2.2.1, (hagree c).2.2.2.1, (hagree c).2.2.2.2.1, (hagree c).2.2.2.2.2.1]
      exact (Cert.Bridge.out_h m ρ hpre c).symm
    · rw [Cert.ReferenceIdeal.Read.val_main_v87_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Bridge.out_y m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
